-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 129
  | .vmem => 40
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x64, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x1, .f32⟩
  | 102 => ⟨S850000x64, .f32⟩
  | 103 => ⟨S850000x64, .f32⟩
  | 104 => ⟨S_, .f32⟩
  | 105 => ⟨S50000x64, .f32⟩
  | 106 => ⟨S850000x1, .i32⟩
  | 107 => ⟨S50000x64, .f32⟩
  | 108 => ⟨S1x64, .f32⟩
  | 109 => ⟨S50000x64, .f32⟩
  | 110 => ⟨S50000x64, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x512, .f32⟩

abbrev hbmTy0_1 (i : Nat) : BufTy := match i % 128 with
  | 0 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x128, .f32⟩
  | .local _ .vmem, ⟨31, _⟩ => ⟨S2000x128, .f32⟩
  | .local _ .vmem, ⟨32, _⟩ => ⟨S128x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S1x64, .f32⟩
  | 117 => ⟨S50000x64, .f32⟩
  | 118 => ⟨S50000x64, .f32⟩
  | 119 => ⟨S50000x64, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x512, .f32⟩

abbrev hbmTy0_1 (i : Nat) : BufTy := match i % 128 with
  | 0 => ⟨S850000x64, .f32⟩
  | 1 => ⟨S850000x1, .f32⟩
  | 2 => ⟨S850000x64, .f32⟩
  | 3 => ⟨S850000x64, .f32⟩
  | 4 => ⟨S_, .f32⟩
  | 5 => ⟨S50000x64, .f32⟩
  | 6 => ⟨S850000x1, .i32⟩
  | 7 => ⟨S50000x64, .f32⟩
  | 8 => ⟨S1x64, .f32⟩
  | 9 => ⟨S50000x64, .f32⟩
  | 10 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its two results named.

  @main is eight kernel regions among stretches of host operations.  The buffer contents at the segment
  boundaries form a fold from the launch memory: a host stretch applies its operations, a region replaces
  its output array by what its grid points write back.  The last boundary's contents are `Gen.W15`.
  Every weakly fair execution terminates, nothing faulting, and in the final memory every unscoped buffer
  holds the last boundary's contents; read at the two result buffers and at the ten arguments this is the
  statement below.
-/
import proofs.«108035_j37495064494308_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result buffers end at the last
    boundary's contents and the argument arrays as launched. -/
theorem run : θ_run defs (onTc (τ := τ) (main (F := F))) ⟨m, fun _ => 0, ρ⟩ (fun r => ∀ c : Dev nD,
      r.2.mem ((c.tc : Thread nD τ).loc main_v79) = W15 m ρ c (Proc.devRef .tc main_v79)
      ∧ r.2.mem ((c.tc : Thread nD τ).loc main_v95) = W15 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v79 (by decide)),
       h c _ (mem_uc main_v95 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Results

end
-- ==== Proof.Payloads.lean ====
/-
  What each kernel body stores, read at an index, at the extended reals.

  The four product bodies store the block product of the loaded row block with the loaded weight matrix: entry
  (r, c) is the sum over k of x (r, k) · w (k, c) — the casts to bf16 are the identity on extended reals and the
  accumulator is the zero splat.  The four bias bodies store the loaded block plus the bias row broadcast over
  the rows; the two hidden layers' bodies then take the maximum with zero.
-/
import proofs.«108035_j37495064494308_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.TcCoe Idealize.ShloMosaic.ValueIdx

/-! ## The three block products' operand indices -/

theorem lhs0_k512 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs1_k512 (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem rhs0_k512 (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem rhs1_k512 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl
/-- The left operand's index for output index `i` and contraction position `k`: (row of `i`, `k`). -/
abbrev lrow_k512 (i : S2000x128.Idx) (k : Fin 512) : S2000x512.Idx := fun a => match a with
  | ⟨0, _⟩ => ⟨(i 0).val, (i 0).isLt⟩
  | ⟨1, _⟩ => ⟨k.val, k.isLt⟩
/-- The right operand's: (`k`, column of `i`). -/
abbrev rcol_k512 (i : S2000x128.Idx) (k : Fin 512) : S512x128.Idx := fun a => match a with
  | ⟨0, _⟩ => ⟨k.val, k.isLt⟩
  | ⟨1, _⟩ => ⟨(i 1).val, (i 1).isLt⟩
theorem lidx_k512 (i : S2000x128.Idx) (k : Fin 512) :
    dot_S2000x512_S512x128_S2000x128_1_0_0_1_n_n.lhsIdx i ((ValueIdx.contrEquiv1 dot_S2000x512_S512x128_S2000x128_1_0_0_1_n_n 512 rfl rfl).symm k) = lrow_k512 i k :=
  funext fun a => Fin.ext (by
    have hk := ValueIdx.contrEquiv1_symm_val dot_S2000x512_S512x128_S2000x128_1_0_0_1_n_n 512 rfl rfl k
    match a with
    | ⟨0, _⟩ => exact lhs0_k512 _ _
    | ⟨1, _⟩ => exact (lhs1_k512 _ _).trans hk)
theorem ridx_k512 (i : S2000x128.Idx) (k : Fin 512) :
    dot_S2000x512_S512x128_S2000x128_1_0_0_1_n_n.rhsIdx i ((ValueIdx.contrEquiv1 dot_S2000x512_S512x128_S2000x128_1_0_0_1_n_n 512 rfl rfl).symm k) = rcol_k512 i k :=
  funext fun a => Fin.ext (by
    have hk := ValueIdx.contrEquiv1_symm_val dot_S2000x512_S512x128_S2000x128_1_0_0_1_n_n 512 rfl rfl k
    match a with
    | ⟨0, _⟩ => exact (rhs0_k512 _ _).trans hk
    | ⟨1, _⟩ => exact rhs1_k512 _ _)

theorem lhs0_k128 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1_k128 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs0_k128 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs1_k128 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The left operand's index for output index `i` and contraction position `k`: (row of `i`, `k`). -/
abbrev lrow_k128 (i : S2000x128.Idx) (k : Fin 128) : S2000x128.Idx := fun a => match a with
  | ⟨0, _⟩ => ⟨(i 0).val, (i 0).isLt⟩
  | ⟨1, _⟩ => ⟨k.val, k.isLt⟩
/-- The right operand's: (`k`, column of `i`). -/
abbrev rcol_k128 (i : S2000x128.Idx) (k : Fin 128) : S128x128.Idx := fun a => match a with
  | ⟨0, _⟩ => ⟨k.val, k.isLt⟩
  | ⟨1, _⟩ => ⟨(i 1).val, (i 1).isLt⟩
theorem lidx_k128 (i : S2000x128.Idx) (k : Fin 128) :
    dot_S2000x128_S128x128_S2000x128_1_0_0_1_n_n.lhsIdx i ((ValueIdx.contrEquiv1 dot_S2000x128_S128x128_S2000x128_1_0_0_1_n_n 128 rfl rfl).symm k) = lrow_k128 i k :=
  funext fun a => Fin.ext (by
    have hk := ValueIdx.contrEquiv1_symm_val dot_S2000x128_S128x128_S2000x128_1_0_0_1_n_n 128 rfl rfl k
    match a with
    | ⟨0, _⟩ => exact lhs0_k128 _ _
    | ⟨1, _⟩ => exact (lhs1_k128 _ _).trans hk)
theorem ridx_k128 (i : S2000x128.Idx) (k : Fin 128) :
    dot_S2000x128_S128x128_S2000x128_1_0_0_1_n_n.rhsIdx i ((ValueIdx.contrEquiv1 dot_S2000x128_S128x128_S2000x128_1_0_0_1_n_n 128 rfl rfl).symm k) = rcol_k128 i k :=
  funext fun a => Fin.ext (by
    have hk := ValueIdx.contrEquiv1_symm_val dot_S2000x128_S128x128_S2000x128_1_0_0_1_n_n 128 rfl rfl k
    match a with
    | ⟨0, _⟩ => exact (rhs0_k128 _ _).trans hk
    | ⟨1, _⟩ => exact rhs1_k128 _ _)

theorem lhs0_k64 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs1_k64 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs0_k64 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs1_k64 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl
/-- The left operand's index for output index `i` and contraction position `k`: (row of `i`, `k`). -/
abbrev lrow_k64 (i : S2000x64.Idx) (k : Fin 128) : S2000x128.Idx := fun a => match a with
  | ⟨0, _⟩ => ⟨(i 0).val, (i 0).isLt⟩
  | ⟨1, _⟩ => ⟨k.val, k.isLt⟩
/-- The right operand's: (`k`, column of `i`). -/
abbrev rcol_k64 (i : S2000x64.Idx) (k : Fin 128) : S128x64.Idx := fun a => match a with
  | ⟨0, _⟩ => ⟨k.val, k.isLt⟩
  | ⟨1, _⟩ => ⟨(i 1).val, (i 1).isLt⟩
theorem lidx_k64 (i : S2000x64.Idx) (k : Fin 128) :
    dot_S2000x128_S128x64_S2000x64_1_0_0_1_n_n.lhsIdx i ((ValueIdx.contrEquiv1 dot_S2000x128_S128x64_S2000x64_1_0_0_1_n_n 128 rfl rfl).symm k) = lrow_k64 i k :=
  funext fun a => Fin.ext (by
    have hk := ValueIdx.contrEquiv1_symm_val dot_S2000x128_S128x64_S2000x64_1_0_0_1_n_n 128 rfl rfl k
    match a with
    | ⟨0, _⟩ => exact lhs0_k64 _ _
    | ⟨1, _⟩ => exact (lhs1_k64 _ _).trans hk)
theorem ridx_k64 (i : S2000x64.Idx) (k : Fin 128) :
    dot_S2000x128_S128x64_S2000x64_1_0_0_1_n_n.rhsIdx i ((ValueIdx.contrEquiv1 dot_S2000x128_S128x64_S2000x64_1_0_0_1_n_n 128 rfl rfl).symm k) = rcol_k64 i k :=
  funext fun a => Fin.ext (by
    have hk := ValueIdx.contrEquiv1_symm_val dot_S2000x128_S128x64_S2000x64_1_0_0_1_n_n 128 rfl rfl k
    match a with
    | ⟨0, _⟩ => exact (rhs0_k64 _ _).trans hk
    | ⟨1, _⟩ => exact rhs1_k64 _ _)

/-! ## The product bodies -/

/-- The body's store of region 0: entry `j` of the block product, the sum over `k` of left (row, k) times right (k, column)
    (the casts to bf16 change nothing at the extended reals; the accumulator starts at zero). -/
theorem pay0_apply (x0 : FVec Ideal S2000x512 .f32) (x1 : FVec Ideal S512x128 .f32) (j : S2000x128.Idx) :
    k0_pay1 (F := Ideal) x0 x1 j = ∑ k : Fin 512, x0 (lrow_k512 j k) * x1 (rcol_k512 j k) := by
  unfold k0_pay1
  refine (Ideal.matmul_constant_zero_apply dot_S2000x512_S512x128_S2000x128_1_0_0_1_n_n none _ _ j).trans ?_
  rw [← Equiv.sum_comp (ValueIdx.contrEquiv1 dot_S2000x512_S512x128_S2000x128_1_0_0_1_n_n 512 rfl rfl).symm]
  refine Finset.sum_congr rfl fun k _ => ?_
  rw [lidx_k512, ridx_k512]
  rfl

/-- The body's store of region 2: entry `j` of the block product, the sum over `k` of left (row, k) times right (k, column)
    (the casts to bf16 change nothing at the extended reals; the accumulator starts at zero). -/
theorem pay2_apply (x0 : FVec Ideal S2000x128 .f32) (x1 : FVec Ideal S128x128 .f32) (j : S2000x128.Idx) :
    k2_pay1 (F := Ideal) x0 x1 j = ∑ k : Fin 128, x0 (lrow_k128 j k) * x1 (rcol_k128 j k) := by
  unfold k2_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  rw [lidx_k128, ridx_k128]
  show shapeCast S2000x128 x0 _ (lrow_k128 j k) * x1 (rcol_k128 j k) = _
  rw [shapeCast_self]

/-- The body's store of region 4: entry `j` of the block product, the sum over `k` of left (row, k) times right (k, column)
    (the casts to bf16 change nothing at the extended reals; the accumulator starts at zero). -/
theorem pay4_apply (x0 : FVec Ideal S2000x128 .f32) (x1 : FVec Ideal S128x64 .f32) (j : S2000x64.Idx) :
    k4_pay1 (F := Ideal) x0 x1 j = ∑ k : Fin 128, x0 (lrow_k64 j k) * x1 (rcol_k64 j k) := by
  unfold k4_pay1
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  rw [lidx_k64, ridx_k64]
  show shapeCast S2000x128 x0 _ (lrow_k64 j k) * x1 (rcol_k64 j k) = _
  rw [shapeCast_self]

/-- The body's store of region 6: entry `j` of the block product, the sum over `k` of left (row, k) times right (k, column)
    (the casts to bf16 change nothing at the extended reals; the accumulator starts at zero). -/
theorem pay6_apply (x0 : FVec Ideal S2000x128 .f32) (x1 : FVec Ideal S128x64 .f32) (j : S2000x64.Idx) :
    k6_pay1 (F := Ideal) x0 x1 j = ∑ k : Fin 128, x0 (lrow_k64 j k) * x1 (rcol_k64 j k) := by
  unfold k6_pay1
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  rw [lidx_k64, ridx_k64]
  show shapeCast S2000x128 x0 _ (lrow_k64 j k) * x1 (rcol_k64 j k) = _
  rw [shapeCast_self]

/-! ## The bias bodies -/

/-- The body's store of region 1: entry (p, c) is the block's entry plus the bias row's entry under column c, met with zero. -/
theorem pay1_apply (x0 : FVec Ideal S2000x128 .f32) (x1 : FVec Ideal S1x128 .f32) (p : Fin 2000) (c : Fin 128) :
    k1_pay1 (F := Ideal) x0 x1 (ix2 p c) = max (x0 (ix2 p c) + x1 (ix2 (0 : Fin 1) c)) (Ideal.ofBits .f32 0x00000000#32) := by
  unfold k1_pay1
  simp only [shapeCast_self]
  show max (x0 (ix2 p c) + broadcastTo S2000x128 x1 broadcasts_S1x128_S2000x128 (ix2 p c)) _ = _
  rw [ValueIdx.broadcastTo_1b_ab_apply]
  rfl

/-- The body's store of region 3: entry (p, c) is the block's entry plus the bias row's entry under column c, met with zero. -/
theorem pay3_apply (x0 : FVec Ideal S2000x128 .f32) (x1 : FVec Ideal S1x128 .f32) (p : Fin 2000) (c : Fin 128) :
    k3_pay1 (F := Ideal) x0 x1 (ix2 p c) = max (x0 (ix2 p c) + x1 (ix2 (0 : Fin 1) c)) (Ideal.ofBits .f32 0x00000000#32) := by
  unfold k3_pay1
  simp only [shapeCast_self]
  show max (x0 (ix2 p c) + broadcastTo S2000x128 x1 broadcasts_S1x128_S2000x128 (ix2 p c)) _ = _
  rw [ValueIdx.broadcastTo_1b_ab_apply]
  rfl

/-- The body's store of region 5: entry (p, c) is the block's entry plus the bias row's entry under column c. -/
theorem pay5_apply (x0 : FVec Ideal S2000x64 .f32) (x1 : FVec Ideal S1x64 .f32) (p : Fin 2000) (c : Fin 64) :
    k5_pay1 (F := Ideal) x0 x1 (ix2 p c) = x0 (ix2 p c) + x1 (ix2 (0 : Fin 1) c) := by
  unfold k5_pay1
  simp only [shapeCast_self]
  show x0 (ix2 p c) + broadcastTo S2000x64 x1 broadcasts_S1x64_S2000x64 (ix2 p c) = _
  rw [ValueIdx.broadcastTo_1b_ab_apply]

/-- The body's store of region 7: entry (p, c) is the block's entry plus the bias row's entry under column c. -/
theorem pay7_apply (x0 : FVec Ideal S2000x64 .f32) (x1 : FVec Ideal S1x64 .f32) (p : Fin 2000) (c : Fin 64) :
    k7_pay1 (F := Ideal) x0 x1 (ix2 p c) = x0 (ix2 p c) + x1 (ix2 (0 : Fin 1) c) := by
  unfold k7_pay1
  simp only [shapeCast_self]
  show x0 (ix2 p c) + broadcastTo S2000x64 x1 broadcasts_S1x64_S2000x64 (ix2 p c) = _
  rw [ValueIdx.broadcastTo_1b_ab_apply]

end Cert.KernelIdeal.Payloads

end
-- ==== Proof.Stages.lean ====
/-
  The graph-convolution stages as whole-array functions, over the reference program's shapes.

  One layer is  out = act (Â · (X · W) + b)  with the normalised adjacency Â applied as a gather of the
  rows of X · W at the source nodes, a scaling of each gathered row by its edge weight, and a scatter-add
  of the scaled rows into the target nodes.  Three kinds of stage are named here:

  * `edgeSum128` / `edgeSum64`: the gather, scale and scatter-add of a node feature matrix `H`, from the
    source and target index vectors `s`, `d` (850000 edges, the self loops included) and the edge weights
    `nrm` — the part both programs compute by the same host operations, never opened;
  * `biasRelu128` / `bias64`: the bias row added to every node's features, then (for the hidden layers)
    the maximum with zero;
  * the products X · W are the host's `dot_general` at the three operand shapes.

  Read at an index (at the extended reals): a product's entry (r, c) is the sum over k of X (r, k) · W (k, c);
  the bias stage's entry (r, c) is A (r, c) + B (0, c), met with 0 for the hidden layers.
-/
import proofs.«108035_j37495064494308_1_alg».proof.Proof.Gen.ReferenceIdeal
import Idealize.ShloMosaic.Lib.Pipeline.Value
import Idealize.ShloMosaic.Lib.ValueIdx
import Idealize.ShloMosaic.PureOps.Ideal.Laws

noncomputable section

namespace Cert.Stages

open Cert.ReferenceIdeal Cert.ReferenceIdeal.Gen Idealize.ShloMosaic Idealize.ShloMosaic.TcCoe

variable {F : FTy → Type} [FloatOps F]

/-! ## The shared edge aggregation -/

/-- jnp's negative-index wrap of an index vector into [0, 50000): `select (s < 0) (s + 50000) s`. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32 : (⟨S_, .i32⟩ : BufTy).Contents (Elt F))))
    (addi s (broadcastInDim S850000 ![] bcast_S_S850000 (constantI S_ 32 50000#32 : (⟨S_, .i32⟩ : BufTy).Contents (Elt F)))) s

/-- Rows of `H` gathered at the sources `s`, each scaled by its edge weight, summed into the targets `d`:
    128 feature columns. -/
def edgeSum128 (H : (⟨S50000x128, .f32⟩ : BufTy).Contents (Elt F)) (s d : (⟨S850000, .i32⟩ : BufTy).Contents (Elt F)) (nrm : (⟨S850000, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32 : (⟨S_, .f32⟩ : BufTy).Contents (Elt F)))
    (broadcastInDim S850000x1 ![0] bcast_S850000_S850000x1_0 d : (⟨S850000x1, .i32⟩ : BufTy).Contents (Elt F))
    (mulf (Host.gather gather_S50000x128_S850000x1_S850000x128_1_0_n_n_0_1_1128 H
        (broadcastInDim S850000x1 ![0] bcast_S850000_S850000x1_0 (wrapIdx s) : (⟨S850000x1, .i32⟩ : BufTy).Contents (Elt F)))
      (broadcastInDim S850000x128 ![0, 1] bcast_S850000x1_S850000x128_0_1
        (broadcastInDim S850000x1 ![0] bcast_S850000_S850000x1_0 nrm : (⟨S850000x1, .f32⟩ : BufTy).Contents (Elt F))))

/-- The same with 64 feature columns. -/
def edgeSum64 (H : (⟨S50000x64, .f32⟩ : BufTy).Contents (Elt F)) (s d : (⟨S850000, .i32⟩ : BufTy).Contents (Elt F)) (nrm : (⟨S850000, .f32⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32 : (⟨S_, .f32⟩ : BufTy).Contents (Elt F)))
    (broadcastInDim S850000x1 ![0] bcast_S850000_S850000x1_0 d : (⟨S850000x1, .i32⟩ : BufTy).Contents (Elt F))
    (mulf (Host.gather gather_S50000x64_S850000x1_S850000x64_1_0_n_n_0_1_164 H
        (broadcastInDim S850000x1 ![0] bcast_S850000_S850000x1_0 (wrapIdx s) : (⟨S850000x1, .i32⟩ : BufTy).Contents (Elt F)))
      (broadcastInDim S850000x64 ![0, 1] bcast_S850000x1_S850000x64_0_1
        (broadcastInDim S850000x1 ![0] bcast_S850000_S850000x1_0 nrm : (⟨S850000x1, .f32⟩ : BufTy).Contents (Elt F))))

/-! ## Bias and activation -/

/-- A bias vector as a one-row matrix. -/
def row128 (b : (⟨S128, .f32⟩ : BufTy).Contents (Elt F)) : (⟨S1x128, .f32⟩ : BufTy).Contents (Elt F) := broadcastInDim S1x128 ![1] bcast_S128_S1x128_1 b
def row64 (b : (⟨S64, .f32⟩ : BufTy).Contents (Elt F)) : (⟨S1x64, .f32⟩ : BufTy).Contents (Elt F) := broadcastInDim S1x64 ![1] bcast_S64_S1x64_1 b

/-- `max (A + B broadcast over the rows) 0`. -/
def biasRelu128 (A : (⟨S50000x128, .f32⟩ : BufTy).Contents (Elt F)) (B : (⟨S1x128, .f32⟩ : BufTy).Contents (Elt F)) : (⟨S50000x128, .f32⟩ : BufTy).Contents (Elt F) :=
  maximumf (addf A (broadcastInDim S50000x128 ![0, 1] bcast_S1x128_S50000x128_0_1 B))
    (broadcastInDim S50000x128 ![] bcast_S_S50000x128 (constant S_ .f32 0x00000000#32 : (⟨S_, .f32⟩ : BufTy).Contents (Elt F)))

/-- `A + B broadcast over the rows`. -/
def bias64 (A : (⟨S50000x64, .f32⟩ : BufTy).Contents (Elt F)) (B : (⟨S1x64, .f32⟩ : BufTy).Contents (Elt F)) : (⟨S50000x64, .f32⟩ : BufTy).Contents (Elt F) :=
  addf A (broadcastInDim S50000x64 ![0, 1] bcast_S1x64_S50000x64_0_1 B)

/-! ## The products -/

def prod512 (X : (⟨S50000x512, .f32⟩ : BufTy).Contents (Elt F)) (W : (⟨S512x128, .f32⟩ : BufTy).Contents (Elt F)) : (⟨S50000x128, .f32⟩ : BufTy).Contents (Elt F) :=
  Host.dotGeneral dot_S50000x512_S512x128_S50000x128_1_0_0_1_n_n none X W
def prod128 (X : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none X W
def prod64 (X : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none X W

/-! ## The graph's index vectors and edge weights, from the edge list -/

/-- Row `0` of the edge list followed by the self loops 0 … 49999: the source of each of the 850000 edges. -/
def srcIdx (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩,
    ⟨S50000, (iotaInDim S50000 32 0 : (⟨S50000, .i32⟩ : BufTy).Contents (Elt F))⟩] concatenates_S800000_S50000_S850000_d0

/-- Row `1` followed by the self loops: the target of each edge. -/
def dstIdx (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩,
    ⟨S50000, (iotaInDim S50000 32 0 : (⟨S50000, .i32⟩ : BufTy).Contents (Elt F))⟩] concatenates_S800000_S50000_S850000_d0

/-- The degree of each node: ones summed into the targets. -/
def degree (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)))
    (broadcastInDim S850000x1 ![0] bcast_S850000_S850000x1_0 (dstIdx e) : (⟨S850000x1, .i32⟩ : BufTy).Contents (Elt F))
    (broadcastInDim S850000 ![] bcast_S_S850000 (constant S_ .f32 0x3F800000#32 : (⟨S_, .f32⟩ : BufTy).Contents (Elt F)))

/-- `deg > 0 ? rsqrt (max deg 1) : 0`. -/
def invSqrtDeg (e : (⟨S2x800000, .i32⟩ : BufTy).Contents (Elt F)) : (⟨S50000, .f32⟩ : BufTy).Contents (Elt F) :=
  select (cmpf .ogt (degree (F := F) e) (broadcastInDim S50000 ![] bcast_S_S50000 (constant S_ .f32 0x00000000#32 : (⟨S_, .f32⟩ : BufTy).Contents (Elt F))))
    (Host.rsqrt (maximumf (degree (F := F) e) (broadcastInDim S50000 ![] bcast_S_S50000 (constant S_ .f32 0x3F800000#32 : (⟨S_, .f32⟩ : BufTy).Contents (Elt F)))))
    (broadcastInDim S50000 ![] bcast_S_S50000 (id (constant S_ .f32 0x00000000#32 : (⟨S_, .f32⟩ : BufTy).Contents (Elt F))))

/-- The weight of each edge: the inverse root degrees of its two ends, multiplied. -/
def edgeNorm (e : (⟨S2x800000, .i32⟩ : BufTy).Contents (Elt F)) : (⟨S850000, .f32⟩ : BufTy).Contents (Elt F) :=
  mulf (Host.gather gather_S50000_S850000x1_S850000_n_0_n_n_0_1_1 (invSqrtDeg (F := F) e)
      (broadcastInDim S850000x1 ![0] bcast_S850000_S850000x1_0 (wrapIdx (F := F) (srcIdx e)) : (⟨S850000x1, .i32⟩ : BufTy).Contents (Elt F)))
    (Host.gather gather_S50000_S850000x1_S850000_n_0_n_n_0_1_1 (invSqrtDeg (F := F) e)
      (broadcastInDim S850000x1 ![0] bcast_S850000_S850000x1_0 (wrapIdx (F := F) (dstIdx e)) : (⟨S850000x1, .i32⟩ : BufTy).Contents (Elt F)))

/-! ## The layers and the two outputs -/

/-- A hidden layer: `max (Â (X W) + b) 0`. -/
def hidden1 (x : (⟨S50000x512, .f32⟩ : BufTy).Contents (Elt F)) (e : (⟨S2x800000, .i32⟩ : BufTy).Contents (Elt F)) (w1 : (⟨S512x128, .f32⟩ : BufTy).Contents (Elt F)) (b1 : (⟨S128, .f32⟩ : BufTy).Contents (Elt F)) : (⟨S50000x128, .f32⟩ : BufTy).Contents (Elt F) :=
  biasRelu128 (edgeSum128 (prod512 x w1) (srcIdx e) (dstIdx e) (edgeNorm e)) (row128 b1)
def hidden2 (h : (⟨S50000x128, .f32⟩ : BufTy).Contents (Elt F)) (e : (⟨S2x800000, .i32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  biasRelu128 (edgeSum128 (prod128 h w2) (srcIdx e) (dstIdx e) (edgeNorm e)) (row128 b2)
/-- An output layer: `Â (H W) + b`. -/
def outLayer (h : (⟨S50000x128, .f32⟩ : BufTy).Contents (Elt F)) (e : (⟨S2x800000, .i32⟩ : BufTy).Contents (Elt F)) (w : (⟨S128x64, .f32⟩ : BufTy).Contents (Elt F)) (b : (⟨S64, .f32⟩ : BufTy).Contents (Elt F)) : (⟨S50000x64, .f32⟩ : BufTy).Contents (Elt F) :=
  bias64 (edgeSum64 (prod64 h w) (srcIdx e) (dstIdx e) (edgeNorm e)) (row64 b)

end Cert.Stages

end
-- ==== Proof.StagesAt.lean ====
/-
  The stages read at an index, at the extended reals.

  A product's entry (r, c) is the sum over the contracted position k of X (r, k) · W (k, c): the host's
  dot_general is that sum, its contraction indices re-indexed by 0 ≤ k < K.  The bias stages are pointwise:
  entry (r, c) is A (r, c) + B (0, c), and the hidden layers meet it with zero.
-/
import proofs.«108035_j37495064494308_1_alg».proof.Proof.Stages

noncomputable section

namespace Cert.Stages

open Cert.ReferenceIdeal Cert.ReferenceIdeal.Gen Idealize.ShloMosaic Idealize.ShloMosaic.TcCoe

/-! ## The three products -/

theorem lhs0_r512 (i : S50000x128.Idx) (q : dot_S50000x512_S512x128_S50000x128_1_0_0_1_n_n.contr.Idx) : (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem lhs1_r512 (i : S50000x128.Idx) (q : dot_S50000x512_S512x128_S50000x128_1_0_0_1_n_n.contr.Idx) : (dot_S50000x512_S512x128_S50000x128_1_0_0_1_n_n.lhsIdx i q 1).val = (q ⟨0, by decide⟩).val :=
  dot_S50000x512_S512x128_S50000x128_1_0_0_1_n_n.lhsIdx_val_of_single rfl i q
theorem rhs0_r512 (i : S50000x128.Idx) (q : dot_S50000x512_S512x128_S50000x128_1_0_0_1_n_n.contr.Idx) : (dot_S50000x512_S512x128_S50000x128_1_0_0_1_n_n.rhsIdx i q 0).val = (q ⟨0, by decide⟩).val :=
  dot_S50000x512_S512x128_S50000x128_1_0_0_1_n_n.rhsIdx_val_of_single rfl i q
theorem rhs1_r512 (i : S50000x128.Idx) (q : dot_S50000x512_S512x128_S50000x128_1_0_0_1_n_n.contr.Idx) : (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl
/-- The left operand's index for output index `i` and contraction position `k`: (row of `i`, `k`). -/
abbrev lrow_r512 (i : S50000x128.Idx) (k : Fin 512) : S50000x512.Idx := fun a => match a with
  | ⟨0, _⟩ => ⟨(i 0).val, (i 0).isLt⟩
  | ⟨1, _⟩ => ⟨k.val, k.isLt⟩
/-- The right operand's: (`k`, column of `i`). -/
abbrev rcol_r512 (i : S50000x128.Idx) (k : Fin 512) : S512x128.Idx := fun a => match a with
  | ⟨0, _⟩ => ⟨k.val, k.isLt⟩
  | ⟨1, _⟩ => ⟨(i 1).val, (i 1).isLt⟩
theorem lidx_r512 (i : S50000x128.Idx) (k : Fin 512) :
    dot_S50000x512_S512x128_S50000x128_1_0_0_1_n_n.lhsIdx i ((ValueIdx.contrEquiv1 dot_S50000x512_S512x128_S50000x128_1_0_0_1_n_n 512 rfl rfl).symm k) = lrow_r512 i k :=
  funext fun a => Fin.ext (by
    have hk := ValueIdx.contrEquiv1_symm_val dot_S50000x512_S512x128_S50000x128_1_0_0_1_n_n 512 rfl rfl k
    match a with
    | ⟨0, _⟩ => exact lhs0_r512 _ _
    | ⟨1, _⟩ => exact (lhs1_r512 _ _).trans hk)
theorem ridx_r512 (i : S50000x128.Idx) (k : Fin 512) :
    dot_S50000x512_S512x128_S50000x128_1_0_0_1_n_n.rhsIdx i ((ValueIdx.contrEquiv1 dot_S50000x512_S512x128_S50000x128_1_0_0_1_n_n 512 rfl rfl).symm k) = rcol_r512 i k :=
  funext fun a => Fin.ext (by
    have hk := ValueIdx.contrEquiv1_symm_val dot_S50000x512_S512x128_S50000x128_1_0_0_1_n_n 512 rfl rfl k
    match a with
    | ⟨0, _⟩ => exact (rhs0_r512 _ _).trans hk
    | ⟨1, _⟩ => exact rhs1_r512 _ _)

/-- Entry `i` of the product: the sum over `k` of left (row, k) times right (k, column). -/
theorem prod512_apply (X : (⟨S50000x512, .f32⟩ : BufTy).Contents (Elt Ideal)) (W : (⟨S512x128, .f32⟩ : BufTy).Contents (Elt Ideal)) (i : S50000x128.Idx) :
    prod512 (F := Ideal) X W i = ∑ k : Fin 512, X (lrow_r512 i k) * W (rcol_r512 i k) := by
  unfold prod512
  simp only [Host.dotGeneral]
  rw [Ideal.dotGeneral_apply, ← Equiv.sum_comp (ValueIdx.contrEquiv1 dot_S50000x512_S512x128_S50000x128_1_0_0_1_n_n 512 rfl rfl).symm]
  refine Finset.sum_congr rfl fun k _ => ?_
  rw [lidx_r512, ridx_r512]

theorem lhs0_r128 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs1_r128 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs0_r128 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs1_r128 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- The left operand's index for output index `i` and contraction position `k`: (row of `i`, `k`). -/
abbrev lrow_r128 (i : S50000x128.Idx) (k : Fin 128) : S50000x128.Idx := fun a => match a with
  | ⟨0, _⟩ => ⟨(i 0).val, (i 0).isLt⟩
  | ⟨1, _⟩ => ⟨k.val, k.isLt⟩
/-- The right operand's: (`k`, column of `i`). -/
abbrev rcol_r128 (i : S50000x128.Idx) (k : Fin 128) : S128x128.Idx := fun a => match a with
  | ⟨0, _⟩ => ⟨k.val, k.isLt⟩
  | ⟨1, _⟩ => ⟨(i 1).val, (i 1).isLt⟩
theorem lidx_r128 (i : S50000x128.Idx) (k : Fin 128) :
    dot_S50000x128_S128x128_S50000x128_1_0_0_1_n_n.lhsIdx i ((ValueIdx.contrEquiv1 dot_S50000x128_S128x128_S50000x128_1_0_0_1_n_n 128 rfl rfl).symm k) = lrow_r128 i k :=
  funext fun a => Fin.ext (by
    have hk := ValueIdx.contrEquiv1_symm_val dot_S50000x128_S128x128_S50000x128_1_0_0_1_n_n 128 rfl rfl k
    match a with
    | ⟨0, _⟩ => exact lhs0_r128 _ _
    | ⟨1, _⟩ => exact (lhs1_r128 _ _).trans hk)
theorem ridx_r128 (i : S50000x128.Idx) (k : Fin 128) :
    dot_S50000x128_S128x128_S50000x128_1_0_0_1_n_n.rhsIdx i ((ValueIdx.contrEquiv1 dot_S50000x128_S128x128_S50000x128_1_0_0_1_n_n 128 rfl rfl).symm k) = rcol_r128 i k :=
  funext fun a => Fin.ext (by
    have hk := ValueIdx.contrEquiv1_symm_val dot_S50000x128_S128x128_S50000x128_1_0_0_1_n_n 128 rfl rfl k
    match a with
    | ⟨0, _⟩ => exact (rhs0_r128 _ _).trans hk
    | ⟨1, _⟩ => exact rhs1_r128 _ _)

/-- Entry `i` of the product: the sum over `k` of left (row, k) times right (k, column). -/
theorem prod128_apply (X : (⟨S50000x128, .f32⟩ : BufTy).Contents (Elt Ideal)) (W : (⟨S128x128, .f32⟩ : BufTy).Contents (Elt Ideal)) (i : S50000x128.Idx) :
    prod128 (F := Ideal) X W i = ∑ k : Fin 128, X (lrow_r128 i k) * W (rcol_r128 i k) := by
  unfold prod128
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  rw [lidx_r128, ridx_r128]

theorem lhs0_r64 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs1_r64 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem rhs0_r64 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem rhs1_r64 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl
/-- The left operand's index for output index `i` and contraction position `k`: (row of `i`, `k`). -/
abbrev lrow_r64 (i : S50000x64.Idx) (k : Fin 128) : S50000x128.Idx := fun a => match a with
  | ⟨0, _⟩ => ⟨(i 0).val, (i 0).isLt⟩
  | ⟨1, _⟩ => ⟨k.val, k.isLt⟩
/-- The right operand's: (`k`, column of `i`). -/
abbrev rcol_r64 (i : S50000x64.Idx) (k : Fin 128) : S128x64.Idx := fun a => match a with
  | ⟨0, _⟩ => ⟨k.val, k.isLt⟩
  | ⟨1, _⟩ => ⟨(i 1).val, (i 1).isLt⟩
theorem lidx_r64 (i : S50000x64.Idx) (k : Fin 128) :
    dot_S50000x128_S128x64_S50000x64_1_0_0_1_n_n.lhsIdx i ((ValueIdx.contrEquiv1 dot_S50000x128_S128x64_S50000x64_1_0_0_1_n_n 128 rfl rfl).symm k) = lrow_r64 i k :=
  funext fun a => Fin.ext (by
    have hk := ValueIdx.contrEquiv1_symm_val dot_S50000x128_S128x64_S50000x64_1_0_0_1_n_n 128 rfl rfl k
    match a with
    | ⟨0, _⟩ => exact lhs0_r64 _ _
    | ⟨1, _⟩ => exact (lhs1_r64 _ _).trans hk)
theorem ridx_r64 (i : S50000x64.Idx) (k : Fin 128) :
    dot_S50000x128_S128x64_S50000x64_1_0_0_1_n_n.rhsIdx i ((ValueIdx.contrEquiv1 dot_S50000x128_S128x64_S50000x64_1_0_0_1_n_n 128 rfl rfl).symm k) = rcol_r64 i k :=
  funext fun a => Fin.ext (by
    have hk := ValueIdx.contrEquiv1_symm_val dot_S50000x128_S128x64_S50000x64_1_0_0_1_n_n 128 rfl rfl k
    match a with
    | ⟨0, _⟩ => exact (rhs0_r64 _ _).trans hk
    | ⟨1, _⟩ => exact rhs1_r64 _ _)

/-- Entry `i` of the product: the sum over `k` of left (row, k) times right (k, column). -/
theorem prod64_apply (X : (⟨S50000x128, .f32⟩ : BufTy).Contents (Elt Ideal)) (W : (⟨S128x64, .f32⟩ : BufTy).Contents (Elt Ideal)) (i : S50000x64.Idx) :
    prod64 (F := Ideal) X W i = ∑ k : Fin 128, X (lrow_r64 i k) * W (rcol_r64 i k) := by
  unfold prod64
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  rw [lidx_r64, ridx_r64]

/-! ## The bias stages -/

/-- The bias row's entry under column `c` of an index (r, c): (0, c). -/
abbrev under128 (i : S50000x128.Idx) : S1x128.Idx := fun a => match a with
  | ⟨0, _⟩ => ⟨0, Nat.one_pos⟩
  | ⟨1, _⟩ => ⟨(i 1).val, (i 1).isLt⟩
abbrev under64 (i : S50000x64.Idx) : S1x64.Idx := fun a => match a with
  | ⟨0, _⟩ => ⟨0, Nat.one_pos⟩
  | ⟨1, _⟩ => ⟨(i 1).val, (i 1).isLt⟩

theorem biasRelu128_apply (A : (⟨S50000x128, .f32⟩ : BufTy).Contents (Elt Ideal)) (B : (⟨S1x128, .f32⟩ : BufTy).Contents (Elt Ideal)) (i : S50000x128.Idx) :
    biasRelu128 (F := Ideal) A B i = max (A i + B (under128 i)) (Ideal.ofBits .f32 0x00000000#32) := by
  unfold biasRelu128
  rw [ValueIdx.maximumf_apply, ValueIdx.addf_apply]
  rw [broadcastInDim_apply _ bcast_S1x128_S50000x128_0_1 B i (under128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ bcast_S_S50000x128 _ i (fun a => a.elim0) (fun a => a.elim0)]
  rfl

theorem bias64_apply (A : (⟨S50000x64, .f32⟩ : BufTy).Contents (Elt Ideal)) (B : (⟨S1x64, .f32⟩ : BufTy).Contents (Elt Ideal)) (i : S50000x64.Idx) :
    bias64 (F := Ideal) A B i = A i + B (under64 i) := by
  unfold bias64
  rw [ValueIdx.addf_apply]
  rw [broadcastInDim_apply _ bcast_S1x64_S50000x64_0_1 B i (under64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]

end Cert.Stages

end
-- ==== Proof.Blocks.lean ====
/-
  One grid point of each region against the whole-array stage.

  Every region walks the 50000 node rows in 25 blocks of 2000.  At block `q` the first window's block is rows
  q·2000 … q·2000+1999 of its array, the second window's block is the whole small operand (the weights, or the
  bias row), and the output block is the same rows of the output array.  Under those readings each body's store
  is the same rows of the whole-array stage: of the product A · W, or of A plus the bias row (met with zero in
  the hidden layers).  The lemmas are stated over plain vectors and index maps with their coordinates given,
  so that nothing here depends on how a window's block is spelt.
-/
import proofs.«108035_j37495064494308_1_alg».proof.Proof.Payloads
import proofs.«108035_j37495064494308_1_alg».proof.Proof.StagesAt

noncomputable section

namespace Cert.KernelIdeal.Blocks

open Cert.KernelIdeal Cert.KernelIdeal.Gen Idealize.ShloMosaic Idealize.ShloMosaic.TcCoe Idealize.ShloMosaic.ValueIdx

/-- Region 0: if the loaded row block is rows `q·2000 …` of `A` and the loaded weights are `W`, the stored block is
    the same rows of the product `A · W`. -/
theorem block0 (A : (⟨Cert.ReferenceIdeal.S50000x512, .f32⟩ : BufTy).Contents (Elt Ideal)) (W : (⟨Cert.ReferenceIdeal.S512x128, .f32⟩ : BufTy).Contents (Elt Ideal)) (q : ℕ)
    (x0 : FVec Ideal S2000x512 .f32) (x1 : FVec Ideal S512x128 .f32)
    (e0 : S2000x512.Idx → Cert.ReferenceIdeal.S50000x512.Idx) (e1 : S512x128.Idx → Cert.ReferenceIdeal.S512x128.Idx) (eo : S2000x128.Idx → Cert.ReferenceIdeal.S50000x128.Idx)
    (h0 : ∀ y, x0 y = A (e0 y)) (h1 : ∀ y, x1 y = W (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x128.Idx) :
    k0_pay1 (F := Ideal) x0 x1 j = Cert.Stages.prod512 (F := Ideal) A W (eo j) := by
  rw [Payloads.pay0_apply, Cert.Stages.prod512_apply]
  refine Finset.sum_congr rfl fun k _ => ?_
  rw [h0, h1]
  have ea : e0 (Payloads.lrow_k512 j k) = Cert.Stages.lrow_r512 (eo j) k := funext fun a => Fin.ext (by
    match a with
    | ⟨0, _⟩ => exact ((he0 _).1).trans ((heo j).1).symm
    | ⟨1, _⟩ => exact (he0 _).2)
  have eb : e1 (Payloads.rcol_k512 j k) = Cert.Stages.rcol_r512 (eo j) k := funext fun a => Fin.ext (by
    match a with
    | ⟨0, _⟩ => exact (he1 _).1
    | ⟨1, _⟩ => exact ((he1 _).2).trans ((heo j).2).symm)
  rw [ea, eb]

/-- Region 1: if the loaded block is rows `q·2000 …` of `A` and the loaded row is `B`, the stored block is the same rows
    of `A` plus `B` under each column, met with zero. -/
theorem block1 (A : (⟨Cert.ReferenceIdeal.S50000x128, .f32⟩ : BufTy).Contents (Elt Ideal)) (B : (⟨Cert.ReferenceIdeal.S1x128, .f32⟩ : BufTy).Contents (Elt Ideal)) (q : ℕ)
    (x0 : FVec Ideal S2000x128 .f32) (x1 : FVec Ideal S1x128 .f32)
    (e0 : S2000x128.Idx → Cert.ReferenceIdeal.S50000x128.Idx) (e1 : S1x128.Idx → Cert.ReferenceIdeal.S1x128.Idx) (eo : S2000x128.Idx → Cert.ReferenceIdeal.S50000x128.Idx)
    (h0 : ∀ y, x0 y = A (e0 y)) (h1 : ∀ y, x1 y = B (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x128.Idx) :
    k1_pay1 (F := Ideal) x0 x1 j = Cert.Stages.biasRelu128 (F := Ideal) A B (eo j) := by
  obtain ⟨p, c, rfl⟩ : ∃ (p : Fin 2000) (c : Fin 128), j = ix2 p c := ⟨j 0, j 1, eq_ix2 j⟩
  rw [Payloads.pay1_apply, Cert.Stages.biasRelu128_apply, h0, h1]
  have ea : e0 (ix2 p c) = eo (ix2 p c) := funext fun a => Fin.ext (by
    match a with
    | ⟨0, _⟩ => exact ((he0 _).1).trans ((heo _).1).symm
    | ⟨1, _⟩ => exact ((he0 _).2).trans ((heo _).2).symm)
  have eb : e1 (ix2 (0 : Fin 1) c) = Cert.Stages.under128 (eo (ix2 p c)) := funext fun a => Fin.ext (by
    match a with
    | ⟨0, _⟩ => exact (he1 _).1
    | ⟨1, _⟩ => exact ((he1 (ix2 (0 : Fin 1) c)).2).trans ((heo (ix2 p c)).2).symm)
  rw [ea, eb]

/-- Region 2: if the loaded row block is rows `q·2000 …` of `A` and the loaded weights are `W`, the stored block is
    the same rows of the product `A · W`. -/
theorem block2 (A : (⟨Cert.ReferenceIdeal.S50000x128, .f32⟩ : BufTy).Contents (Elt Ideal)) (W : (⟨Cert.ReferenceIdeal.S128x128, .f32⟩ : BufTy).Contents (Elt Ideal)) (q : ℕ)
    (x0 : FVec Ideal S2000x128 .f32) (x1 : FVec Ideal S128x128 .f32)
    (e0 : S2000x128.Idx → Cert.ReferenceIdeal.S50000x128.Idx) (e1 : S128x128.Idx → Cert.ReferenceIdeal.S128x128.Idx) (eo : S2000x128.Idx → Cert.ReferenceIdeal.S50000x128.Idx)
    (h0 : ∀ y, x0 y = A (e0 y)) (h1 : ∀ y, x1 y = W (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x128.Idx) :
    k2_pay1 (F := Ideal) x0 x1 j = Cert.Stages.prod128 (F := Ideal) A W (eo j) := by
  rw [Payloads.pay2_apply, Cert.Stages.prod128_apply]
  refine Finset.sum_congr rfl fun k _ => ?_
  rw [h0, h1]
  have ea : e0 (Payloads.lrow_k128 j k) = Cert.Stages.lrow_r128 (eo j) k := funext fun a => Fin.ext (by
    match a with
    | ⟨0, _⟩ => exact ((he0 _).1).trans ((heo j).1).symm
    | ⟨1, _⟩ => exact (he0 _).2)
  have eb : e1 (Payloads.rcol_k128 j k) = Cert.Stages.rcol_r128 (eo j) k := funext fun a => Fin.ext (by
    match a with
    | ⟨0, _⟩ => exact (he1 _).1
    | ⟨1, _⟩ => exact ((he1 _).2).trans ((heo j).2).symm)
  rw [ea, eb]

/-- Region 3: if the loaded block is rows `q·2000 …` of `A` and the loaded row is `B`, the stored block is the same rows
    of `A` plus `B` under each column, met with zero. -/
theorem block3 (A : (⟨Cert.ReferenceIdeal.S50000x128, .f32⟩ : BufTy).Contents (Elt Ideal)) (B : (⟨Cert.ReferenceIdeal.S1x128, .f32⟩ : BufTy).Contents (Elt Ideal)) (q : ℕ)
    (x0 : FVec Ideal S2000x128 .f32) (x1 : FVec Ideal S1x128 .f32)
    (e0 : S2000x128.Idx → Cert.ReferenceIdeal.S50000x128.Idx) (e1 : S1x128.Idx → Cert.ReferenceIdeal.S1x128.Idx) (eo : S2000x128.Idx → Cert.ReferenceIdeal.S50000x128.Idx)
    (h0 : ∀ y, x0 y = A (e0 y)) (h1 : ∀ y, x1 y = B (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x128.Idx) :
    k3_pay1 (F := Ideal) x0 x1 j = Cert.Stages.biasRelu128 (F := Ideal) A B (eo j) := by
  obtain ⟨p, c, rfl⟩ : ∃ (p : Fin 2000) (c : Fin 128), j = ix2 p c := ⟨j 0, j 1, eq_ix2 j⟩
  rw [Payloads.pay3_apply, Cert.Stages.biasRelu128_apply, h0, h1]
  have ea : e0 (ix2 p c) = eo (ix2 p c) := funext fun a => Fin.ext (by
    match a with
    | ⟨0, _⟩ => exact ((he0 _).1).trans ((heo _).1).symm
    | ⟨1, _⟩ => exact ((he0 _).2).trans ((heo _).2).symm)
  have eb : e1 (ix2 (0 : Fin 1) c) = Cert.Stages.under128 (eo (ix2 p c)) := funext fun a => Fin.ext (by
    match a with
    | ⟨0, _⟩ => exact (he1 _).1
    | ⟨1, _⟩ => exact ((he1 (ix2 (0 : Fin 1) c)).2).trans ((heo (ix2 p c)).2).symm)
  rw [ea, eb]

/-- Region 4: if the loaded row block is rows `q·2000 …` of `A` and the loaded weights are `W`, the stored block is
    the same rows of the product `A · W`. -/
theorem block4 (A : (⟨Cert.ReferenceIdeal.S50000x128, .f32⟩ : BufTy).Contents (Elt Ideal)) (W : (⟨Cert.ReferenceIdeal.S128x64, .f32⟩ : BufTy).Contents (Elt Ideal)) (q : ℕ)
    (x0 : FVec Ideal S2000x128 .f32) (x1 : FVec Ideal S128x64 .f32)
    (e0 : S2000x128.Idx → Cert.ReferenceIdeal.S50000x128.Idx) (e1 : S128x64.Idx → Cert.ReferenceIdeal.S128x64.Idx) (eo : S2000x64.Idx → Cert.ReferenceIdeal.S50000x64.Idx)
    (h0 : ∀ y, x0 y = A (e0 y)) (h1 : ∀ y, x1 y = W (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x64.Idx) :
    k4_pay1 (F := Ideal) x0 x1 j = Cert.Stages.prod64 (F := Ideal) A W (eo j) := by
  rw [Payloads.pay4_apply, Cert.Stages.prod64_apply]
  refine Finset.sum_congr rfl fun k _ => ?_
  rw [h0, h1]
  have ea : e0 (Payloads.lrow_k64 j k) = Cert.Stages.lrow_r64 (eo j) k := funext fun a => Fin.ext (by
    match a with
    | ⟨0, _⟩ => exact ((he0 _).1).trans ((heo j).1).symm
    | ⟨1, _⟩ => exact (he0 _).2)
  have eb : e1 (Payloads.rcol_k64 j k) = Cert.Stages.rcol_r64 (eo j) k := funext fun a => Fin.ext (by
    match a with
    | ⟨0, _⟩ => exact (he1 _).1
    | ⟨1, _⟩ => exact ((he1 _).2).trans ((heo j).2).symm)
  rw [ea, eb]

/-- Region 5: if the loaded block is rows `q·2000 …` of `A` and the loaded row is `B`, the stored block is the same rows
    of `A` plus `B` under each column. -/
theorem block5 (A : (⟨Cert.ReferenceIdeal.S50000x64, .f32⟩ : BufTy).Contents (Elt Ideal)) (B : (⟨Cert.ReferenceIdeal.S1x64, .f32⟩ : BufTy).Contents (Elt Ideal)) (q : ℕ)
    (x0 : FVec Ideal S2000x64 .f32) (x1 : FVec Ideal S1x64 .f32)
    (e0 : S2000x64.Idx → Cert.ReferenceIdeal.S50000x64.Idx) (e1 : S1x64.Idx → Cert.ReferenceIdeal.S1x64.Idx) (eo : S2000x64.Idx → Cert.ReferenceIdeal.S50000x64.Idx)
    (h0 : ∀ y, x0 y = A (e0 y)) (h1 : ∀ y, x1 y = B (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x64.Idx) :
    k5_pay1 (F := Ideal) x0 x1 j = Cert.Stages.bias64 (F := Ideal) A B (eo j) := by
  obtain ⟨p, c, rfl⟩ : ∃ (p : Fin 2000) (c : Fin 64), j = ix2 p c := ⟨j 0, j 1, eq_ix2 j⟩
  rw [Payloads.pay5_apply, Cert.Stages.bias64_apply, h0, h1]
  have ea : e0 (ix2 p c) = eo (ix2 p c) := funext fun a => Fin.ext (by
    match a with
    | ⟨0, _⟩ => exact ((he0 _).1).trans ((heo _).1).symm
    | ⟨1, _⟩ => exact ((he0 _).2).trans ((heo _).2).symm)
  have eb : e1 (ix2 (0 : Fin 1) c) = Cert.Stages.under64 (eo (ix2 p c)) := funext fun a => Fin.ext (by
    match a with
    | ⟨0, _⟩ => exact (he1 _).1
    | ⟨1, _⟩ => exact ((he1 (ix2 (0 : Fin 1) c)).2).trans ((heo (ix2 p c)).2).symm)
  rw [ea, eb]

/-- Region 6: if the loaded row block is rows `q·2000 …` of `A` and the loaded weights are `W`, the stored block is
    the same rows of the product `A · W`. -/
theorem block6 (A : (⟨Cert.ReferenceIdeal.S50000x128, .f32⟩ : BufTy).Contents (Elt Ideal)) (W : (⟨Cert.ReferenceIdeal.S128x64, .f32⟩ : BufTy).Contents (Elt Ideal)) (q : ℕ)
    (x0 : FVec Ideal S2000x128 .f32) (x1 : FVec Ideal S128x64 .f32)
    (e0 : S2000x128.Idx → Cert.ReferenceIdeal.S50000x128.Idx) (e1 : S128x64.Idx → Cert.ReferenceIdeal.S128x64.Idx) (eo : S2000x64.Idx → Cert.ReferenceIdeal.S50000x64.Idx)
    (h0 : ∀ y, x0 y = A (e0 y)) (h1 : ∀ y, x1 y = W (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x64.Idx) :
    k6_pay1 (F := Ideal) x0 x1 j = Cert.Stages.prod64 (F := Ideal) A W (eo j) := by
  rw [Payloads.pay6_apply, Cert.Stages.prod64_apply]
  refine Finset.sum_congr rfl fun k _ => ?_
  rw [h0, h1]
  have ea : e0 (Payloads.lrow_k64 j k) = Cert.Stages.lrow_r64 (eo j) k := funext fun a => Fin.ext (by
    match a with
    | ⟨0, _⟩ => exact ((he0 _).1).trans ((heo j).1).symm
    | ⟨1, _⟩ => exact (he0 _).2)
  have eb : e1 (Payloads.rcol_k64 j k) = Cert.Stages.rcol_r64 (eo j) k := funext fun a => Fin.ext (by
    match a with
    | ⟨0, _⟩ => exact (he1 _).1
    | ⟨1, _⟩ => exact ((he1 _).2).trans ((heo j).2).symm)
  rw [ea, eb]

/-- Region 7: if the loaded block is rows `q·2000 …` of `A` and the loaded row is `B`, the stored block is the same rows
    of `A` plus `B` under each column. -/
theorem block7 (A : (⟨Cert.ReferenceIdeal.S50000x64, .f32⟩ : BufTy).Contents (Elt Ideal)) (B : (⟨Cert.ReferenceIdeal.S1x64, .f32⟩ : BufTy).Contents (Elt Ideal)) (q : ℕ)
    (x0 : FVec Ideal S2000x64 .f32) (x1 : FVec Ideal S1x64 .f32)
    (e0 : S2000x64.Idx → Cert.ReferenceIdeal.S50000x64.Idx) (e1 : S1x64.Idx → Cert.ReferenceIdeal.S1x64.Idx) (eo : S2000x64.Idx → Cert.ReferenceIdeal.S50000x64.Idx)
    (h0 : ∀ y, x0 y = A (e0 y)) (h1 : ∀ y, x1 y = B (e1 y))
    (he0 : ∀ y, (e0 y 0).val = q * 2000 + (y 0).val ∧ (e0 y 1).val = (y 1).val)
    (he1 : ∀ y, (e1 y 0).val = (y 0).val ∧ (e1 y 1).val = (y 1).val)
    (heo : ∀ y, (eo y 0).val = q * 2000 + (y 0).val ∧ (eo y 1).val = (y 1).val)
    (j : S2000x64.Idx) :
    k7_pay1 (F := Ideal) x0 x1 j = Cert.Stages.bias64 (F := Ideal) A B (eo j) := by
  obtain ⟨p, c, rfl⟩ : ∃ (p : Fin 2000) (c : Fin 64), j = ix2 p c := ⟨j 0, j 1, eq_ix2 j⟩
  rw [Payloads.pay7_apply, Cert.Stages.bias64_apply, h0, h1]
  have ea : e0 (ix2 p c) = eo (ix2 p c) := funext fun a => Fin.ext (by
    match a with
    | ⟨0, _⟩ => exact ((he0 _).1).trans ((heo _).1).symm
    | ⟨1, _⟩ => exact ((he0 _).2).trans ((heo _).2).symm)
  have eb : e1 (ix2 (0 : Fin 1) c) = Cert.Stages.under64 (eo (ix2 p c)) := funext fun a => Fin.ext (by
    match a with
    | ⟨0, _⟩ => exact (he1 _).1
    | ⟨1, _⟩ => exact ((he1 (ix2 (0 : Fin 1) c)).2).trans ((heo (ix2 p c)).2).symm)
  rw [ea, eb]

end Cert.KernelIdeal.Blocks

end
-- ==== Proof.Region0.lean ====
/-
  Region 0 as a whole-array function: its output array ends holding the product of the node features with the first weight matrix.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row 0 … 24 is some point's. -/
theorem idx_onto : ∀ q : Fin 25, ∃ t : Fin cfg0.N, t.val = q.val :=
  (by decide +kernel : ∀ q : Fin 25, ∃ t : Fin grid0.N, t.val = q.val)

/-- What point `t` writes back is block `t` of the stage of the two operand arrays as the region finds them. -/
theorem flushed_eq (c : Dev nD) (t : Fin cfg0.N) :
    (dat0 (F := Ideal) V c).flushed 2 t
      = ((cfg0.win 2).blk t).view.read (Elt Ideal) (Cert.Stages.prod512 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  funext j
  show k0_pay1 (iblk0 V c 0 t) (iblk0 V c 1 t) j
    = Cert.Stages.prod512 (F := Ideal) (V c main_arg0) (V c main_arg2) (((cfg0.win 2).blk t).view.emb j)
  exact Blocks.block0 (V c main_arg0) (V c main_arg2) t.val (iblk0 V c 0 t) (iblk0 V c 1 t)
    (((cfg0.win 0).blk t).view.emb) (((cfg0.win 1).blk t).view.emb) (((cfg0.win 2).blk t).view.emb)
    (fun y => rfl) (fun y => rfl)
    (fun y => ⟨by show win0_0.index t (0 : Fin 2) * 2000 + 1 * (y 0).val = t.val * 2000 + (y 0).val; omega,
               by show win0_0.index t (1 : Fin 2) * 512 + 1 * (y 1).val = (y 1).val; omega⟩)
    (fun y => ⟨by show win0_1.index t (0 : Fin 2) * 512 + 1 * (y 0).val = (y 0).val; omega,
               by show win0_1.index t (1 : Fin 2) * 128 + 1 * (y 1).val = (y 1).val; omega⟩)
    (fun y => ⟨by show win0_2.index t (0 : Fin 2) * 2000 + 1 * (y 0).val = t.val * 2000 + (y 0).val; omega,
               by show win0_2.index t (1 : Fin 2) * 128 + 1 * (y 1).val = (y 1).val; omega⟩)
    j

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row r of the output lies in the block of point r / 2000: the blocks cover the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- THE OUTPUT ARRAY after the region: the stage of the two operand arrays as the region finds them. -/
theorem out_eq (c : Dev nD) :
    (dat0 (F := Ideal) V c).arrAt 2 cfg0.N = Cert.Stages.prod512 (F := Ideal) (V c main_arg0) (V c main_arg2) :=
  (dat0 V c).arrAt_eq_of_cover 2 _ (fun t _ => flushed_eq V c t) (cover)

end Cert.KernelIdeal.Region0

end
-- ==== Proof.Region1.lean ====
/-
  Region 1 as a whole-array function: its output array ends holding the first layer's aggregate plus its bias row, met with zero.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row 0 … 24 is some point's. -/
theorem idx_onto : ∀ q : Fin 25, ∃ t : Fin cfg1.N, t.val = q.val :=
  (by decide +kernel : ∀ q : Fin 25, ∃ t : Fin grid1.N, t.val = q.val)

/-- What point `t` writes back is block `t` of the stage of the two operand arrays as the region finds them. -/
theorem flushed_eq (c : Dev nD) (t : Fin cfg1.N) :
    (dat1 (F := Ideal) V c).flushed 2 t
      = ((cfg1.win 2).blk t).view.read (Elt Ideal) (Cert.Stages.biasRelu128 (F := Ideal) (V c main_v45) (V c main_v46)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts t
  funext j
  show k1_pay1 (iblk1 V c 0 t) (iblk1 V c 1 t) j
    = Cert.Stages.biasRelu128 (F := Ideal) (V c main_v45) (V c main_v46) (((cfg1.win 2).blk t).view.emb j)
  exact Blocks.block1 (V c main_v45) (V c main_v46) t.val (iblk1 V c 0 t) (iblk1 V c 1 t)
    (((cfg1.win 0).blk t).view.emb) (((cfg1.win 1).blk t).view.emb) (((cfg1.win 2).blk t).view.emb)
    (fun y => rfl) (fun y => rfl)
    (fun y => ⟨by show win1_0.index t (0 : Fin 2) * 2000 + 1 * (y 0).val = t.val * 2000 + (y 0).val; omega,
               by show win1_0.index t (1 : Fin 2) * 128 + 1 * (y 1).val = (y 1).val; omega⟩)
    (fun y => ⟨by show win1_1.index t (0 : Fin 2) * 1 + 1 * (y 0).val = (y 0).val; omega,
               by show win1_1.index t (1 : Fin 2) * 128 + 1 * (y 1).val = (y 1).val; omega⟩)
    (fun y => ⟨by show win1_2.index t (0 : Fin 2) * 2000 + 1 * (y 0).val = t.val * 2000 + (y 0).val; omega,
               by show win1_2.index t (1 : Fin 2) * 128 + 1 * (y 1).val = (y 1).val; omega⟩)
    j

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row r of the output lies in the block of point r / 2000: the blocks cover the array. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨-, -, -, -, e4, e5⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- THE OUTPUT ARRAY after the region: the stage of the two operand arrays as the region finds them. -/
theorem out_eq (c : Dev nD) :
    (dat1 (F := Ideal) V c).arrAt 2 cfg1.N = Cert.Stages.biasRelu128 (F := Ideal) (V c main_v45) (V c main_v46) :=
  (dat1 V c).arrAt_eq_of_cover 2 _ (fun t _ => flushed_eq V c t) (cover)

end Cert.KernelIdeal.Region1

end
-- ==== Proof.Region2.lean ====
/-
  Region 2 as a whole-array function: its output array ends holding the product of the first hidden features with the second weight matrix.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row 0 … 24 is some point's. -/
theorem idx_onto : ∀ q : Fin 25, ∃ t : Fin cfg2.N, t.val = q.val :=
  (by decide +kernel : ∀ q : Fin 25, ∃ t : Fin grid2.N, t.val = q.val)

/-- What point `t` writes back is block `t` of the stage of the two operand arrays as the region finds them. -/
theorem flushed_eq (c : Dev nD) (t : Fin cfg2.N) :
    (dat2 (F := Ideal) V c).flushed 2 t
      = ((cfg2.win 2).blk t).view.read (Elt Ideal) (Cert.Stages.prod128 (F := Ideal) (V c main_v47) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts t
  funext j
  show k2_pay1 (iblk2 V c 0 t) (iblk2 V c 1 t) j
    = Cert.Stages.prod128 (F := Ideal) (V c main_v47) (V c main_arg4) (((cfg2.win 2).blk t).view.emb j)
  exact Blocks.block2 (V c main_v47) (V c main_arg4) t.val (iblk2 V c 0 t) (iblk2 V c 1 t)
    (((cfg2.win 0).blk t).view.emb) (((cfg2.win 1).blk t).view.emb) (((cfg2.win 2).blk t).view.emb)
    (fun y => rfl) (fun y => rfl)
    (fun y => ⟨by show win2_0.index t (0 : Fin 2) * 2000 + 1 * (y 0).val = t.val * 2000 + (y 0).val; omega,
               by show win2_0.index t (1 : Fin 2) * 128 + 1 * (y 1).val = (y 1).val; omega⟩)
    (fun y => ⟨by show win2_1.index t (0 : Fin 2) * 128 + 1 * (y 0).val = (y 0).val; omega,
               by show win2_1.index t (1 : Fin 2) * 128 + 1 * (y 1).val = (y 1).val; omega⟩)
    (fun y => ⟨by show win2_2.index t (0 : Fin 2) * 2000 + 1 * (y 0).val = t.val * 2000 + (y 0).val; omega,
               by show win2_2.index t (1 : Fin 2) * 128 + 1 * (y 1).val = (y 1).val; omega⟩)
    j

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Row r of the output lies in the block of point r / 2000: the blocks cover the array. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨-, -, -, -, e4, e5⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- THE OUTPUT ARRAY after the region: the stage of the two operand arrays as the region finds them. -/
theorem out_eq (c : Dev nD) :
    (dat2 (F := Ideal) V c).arrAt 2 cfg2.N = Cert.Stages.prod128 (F := Ideal) (V c main_v47) (V c main_arg4) :=
  (dat2 V c).arrAt_eq_of_cover 2 _ (fun t _ => flushed_eq V c t) (cover)

end Cert.KernelIdeal.Region2

end
-- ==== Proof.Region3.lean ====
/-
  Region 3 as a whole-array function: its output array ends holding the second layer's aggregate plus its bias row, met with zero.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row 0 … 24 is some point's. -/
theorem idx_onto : ∀ q : Fin 25, ∃ t : Fin cfg3.N, t.val = q.val :=
  (by decide +kernel : ∀ q : Fin 25, ∃ t : Fin grid3.N, t.val = q.val)

/-- What point `t` writes back is block `t` of the stage of the two operand arrays as the region finds them. -/
theorem flushed_eq (c : Dev nD) (t : Fin cfg3.N) :
    (dat3 (F := Ideal) V c).flushed 2 t
      = ((cfg3.win 2).blk t).view.read (Elt Ideal) (Cert.Stages.biasRelu128 (F := Ideal) (V c main_v61) (V c main_v62)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts t
  funext j
  show k3_pay1 (iblk3 V c 0 t) (iblk3 V c 1 t) j
    = Cert.Stages.biasRelu128 (F := Ideal) (V c main_v61) (V c main_v62) (((cfg3.win 2).blk t).view.emb j)
  exact Blocks.block3 (V c main_v61) (V c main_v62) t.val (iblk3 V c 0 t) (iblk3 V c 1 t)
    (((cfg3.win 0).blk t).view.emb) (((cfg3.win 1).blk t).view.emb) (((cfg3.win 2).blk t).view.emb)
    (fun y => rfl) (fun y => rfl)
    (fun y => ⟨by show win3_0.index t (0 : Fin 2) * 2000 + 1 * (y 0).val = t.val * 2000 + (y 0).val; omega,
               by show win3_0.index t (1 : Fin 2) * 128 + 1 * (y 1).val = (y 1).val; omega⟩)
    (fun y => ⟨by show win3_1.index t (0 : Fin 2) * 1 + 1 * (y 0).val = (y 0).val; omega,
               by show win3_1.index t (1 : Fin 2) * 128 + 1 * (y 1).val = (y 1).val; omega⟩)
    (fun y => ⟨by show win3_2.index t (0 : Fin 2) * 2000 + 1 * (y 0).val = t.val * 2000 + (y 0).val; omega,
               by show win3_2.index t (1 : Fin 2) * 128 + 1 * (y 1).val = (y 1).val; omega⟩)
    j

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- Row r of the output lies in the block of point r / 2000: the blocks cover the array. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨-, -, -, -, e4, e5⟩ := idx_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 128 ≤ (i 1).val ∧ (i 1).val < win3_2.index t (1 : Fin 2) * 128 + 128
    omega

/-- THE OUTPUT ARRAY after the region: the stage of the two operand arrays as the region finds them. -/
theorem out_eq (c : Dev nD) :
    (dat3 (F := Ideal) V c).arrAt 2 cfg3.N = Cert.Stages.biasRelu128 (F := Ideal) (V c main_v61) (V c main_v62) :=
  (dat3 V c).arrAt_eq_of_cover 2 _ (fun t _ => flushed_eq V c t) (cover)

end Cert.KernelIdeal.Region3

end
-- ==== Proof.Region4.lean ====
/-
  Region 4 as a whole-array function: its output array ends holding the product of the second hidden features with the mean head's weights.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block row 0 … 24 is some point's. -/
theorem idx_onto : ∀ q : Fin 25, ∃ t : Fin cfg4.N, t.val = q.val :=
  (by decide +kernel : ∀ q : Fin 25, ∃ t : Fin grid4.N, t.val = q.val)

/-- What point `t` writes back is block `t` of the stage of the two operand arrays as the region finds them. -/
theorem flushed_eq (c : Dev nD) (t : Fin cfg4.N) :
    (dat4 (F := Ideal) V c).flushed 2 t
      = ((cfg4.win 2).blk t).view.read (Elt Ideal) (Cert.Stages.prod64 (F := Ideal) (V c main_v63) (V c main_arg6)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  obtain ⟨e0, e1, e2, e3, e4, e5⟩ := idx_facts t
  funext j
  show k4_pay1 (iblk4 V c 0 t) (iblk4 V c 1 t) j
    = Cert.Stages.prod64 (F := Ideal) (V c main_v63) (V c main_arg6) (((cfg4.win 2).blk t).view.emb j)
  exact Blocks.block4 (V c main_v63) (V c main_arg6) t.val (iblk4 V c 0 t) (iblk4 V c 1 t)
    (((cfg4.win 0).blk t).view.emb) (((cfg4.win 1).blk t).view.emb) (((cfg4.win 2).blk t).view.emb)
    (fun y => rfl) (fun y => rfl)
    (fun y => ⟨by show win4_0.index t (0 : Fin 2) * 2000 + 1 * (y 0).val = t.val * 2000 + (y 0).val; omega,
               by show win4_0.index t (1 : Fin 2) * 128 + 1 * (y 1).val = (y 1).val; omega⟩)
    (fun y => ⟨by show win4_1.index t (0 : Fin 2) * 128 + 1 * (y 0).val = (y 0).val; omega,
               by show win4_1.index t (1 : Fin 2) * 64 + 1 * (y 1).val = (y 1).val; omega⟩)
    (fun y => ⟨by show win4_2.index t (0 : Fin 2) * 2000 + 1 * (y 0).val = t.val * 2000 + (y 0).val; omega,
               by show win4_2.index t (1 : Fin 2) * 64 + 1 * (y 1).val = (y 1).val; omega⟩)
    j

/-- An index of the output array is in point `t`'s block iff each coordinate is in the block's range on its axis. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v64).slice (win4_2.rect t)).set ↔ _
  rw [View.set_slice_whole, Rect.mem_set_unit]
  exact Iff.rfl

/-- Row r of the output lies in the block of point r / 2000: the blocks cover the array. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  obtain ⟨-, -, -, -, e4, e5⟩ := idx_facts t
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 64 ≤ (i 1).val ∧ (i 1).val < win4_2.index t (1 : Fin 2) * 64 + 64
    omega

/-- THE OUTPUT ARRAY after the region: the stage of the two operand arrays as the region finds them. -/
theorem out_eq (c : Dev nD) :
    (dat4 (F := Ideal) V c).arrAt 2 cfg4.N = Cert.Stages.prod64 (F := Ideal) (V c main_v63) (V c main_arg6) :=
  (dat4 V c).arrAt_eq_of_cover 2 _ (fun t _ => flushed_eq V c t) (cover)

end Cert.KernelIdeal.Region4

end
-- ==== Proof.Region5.lean ====
/-
  Region 5 as a whole-array function: its output array ends holding the mean head's aggregate plus its bias row.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every block row 0 … 24 is some point's. -/
theorem idx_onto : ∀ q : Fin 25, ∃ t : Fin cfg5.N, t.val = q.val :=
  (by decide +kernel : ∀ q : Fin 25, ∃ t : Fin grid5.N, t.val = q.val)

/-- What point `t` writes back is block `t` of the stage of the two operand arrays as the region finds them. -/
theorem flushed_eq (c : Dev nD) (t : Fin cfg5.N) :
    (dat5 (F := Ideal) V c).flushed 2 t
      = ((cfg5.win 2).blk t).view.read (Elt Ideal) (Cert.Stages.bias64 (F := Ideal) (V c main_v77) (V c main_v78)) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  obtain ⟨e0, e1, e2, e3, e4, e5⟩ := idx_facts t
  funext j
  show k5_pay1 (iblk5 V c 0 t) (iblk5 V c 1 t) j
    = Cert.Stages.bias64 (F := Ideal) (V c main_v77) (V c main_v78) (((cfg5.win 2).blk t).view.emb j)
  exact Blocks.block5 (V c main_v77) (V c main_v78) t.val (iblk5 V c 0 t) (iblk5 V c 1 t)
    (((cfg5.win 0).blk t).view.emb) (((cfg5.win 1).blk t).view.emb) (((cfg5.win 2).blk t).view.emb)
    (fun y => rfl) (fun y => rfl)
    (fun y => ⟨by show win5_0.index t (0 : Fin 2) * 2000 + 1 * (y 0).val = t.val * 2000 + (y 0).val; omega,
               by show win5_0.index t (1 : Fin 2) * 64 + 1 * (y 1).val = (y 1).val; omega⟩)
    (fun y => ⟨by show win5_1.index t (0 : Fin 2) * 1 + 1 * (y 0).val = (y 0).val; omega,
               by show win5_1.index t (1 : Fin 2) * 64 + 1 * (y 1).val = (y 1).val; omega⟩)
    (fun y => ⟨by show win5_2.index t (0 : Fin 2) * 2000 + 1 * (y 0).val = t.val * 2000 + (y 0).val; omega,
               by show win5_2.index t (1 : Fin 2) * 64 + 1 * (y 1).val = (y 1).val; omega⟩)
    j

/-- An index of the output array is in point `t`'s block iff each coordinate is in the block's range on its axis. -/
theorem mem_blk (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v79).slice (win5_2.rect t)).set ↔ _
  rw [View.set_slice_whole, Rect.mem_set_unit]
  exact Iff.rfl

/-- Row r of the output lies in the block of point r / 2000: the blocks cover the array. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  obtain ⟨-, -, -, -, e4, e5⟩ := idx_facts t
  refine ⟨t, flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 64 ≤ (i 1).val ∧ (i 1).val < win5_2.index t (1 : Fin 2) * 64 + 64
    omega

/-- THE OUTPUT ARRAY after the region: the stage of the two operand arrays as the region finds them. -/
theorem out_eq (c : Dev nD) :
    (dat5 (F := Ideal) V c).arrAt 2 cfg5.N = Cert.Stages.bias64 (F := Ideal) (V c main_v77) (V c main_v78) :=
  (dat5 V c).arrAt_eq_of_cover 2 _ (fun t _ => flushed_eq V c t) (cover)

end Cert.KernelIdeal.Region5

end
-- ==== Proof.Region6.lean ====
/-
  Region 6 as a whole-array function: its output array ends holding the product of the second hidden features with the log-std head's weights.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region6

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every block row 0 … 24 is some point's. -/
theorem idx_onto : ∀ q : Fin 25, ∃ t : Fin cfg6.N, t.val = q.val :=
  (by decide +kernel : ∀ q : Fin 25, ∃ t : Fin grid6.N, t.val = q.val)

/-- What point `t` writes back is block `t` of the stage of the two operand arrays as the region finds them. -/
theorem flushed_eq (c : Dev nD) (t : Fin cfg6.N) :
    (dat6 (F := Ideal) V c).flushed 2 t
      = ((cfg6.win 2).blk t).view.read (Elt Ideal) (Cert.Stages.prod64 (F := Ideal) (V c main_v63) (V c main_arg8)) := by
  show (cfg6.win 2).cut (grid6.coords t) ((dat6 V c).after 2 t) = _
  rw [after6_2]
  unfold out6_2
  rw [View.canon_unit_zero hz]
  simp only [View.ld_unit_zero (S := S2000x128) hz, View.ld_unit_zero (S := S128x64) hz]
  obtain ⟨e0, e1, e2, e3, e4, e5⟩ := idx_facts t
  funext j
  show k6_pay1 (iblk6 V c 0 t) (iblk6 V c 1 t) j
    = Cert.Stages.prod64 (F := Ideal) (V c main_v63) (V c main_arg8) (((cfg6.win 2).blk t).view.emb j)
  exact Blocks.block6 (V c main_v63) (V c main_arg8) t.val (iblk6 V c 0 t) (iblk6 V c 1 t)
    (((cfg6.win 0).blk t).view.emb) (((cfg6.win 1).blk t).view.emb) (((cfg6.win 2).blk t).view.emb)
    (fun y => rfl) (fun y => rfl)
    (fun y => ⟨by show win6_0.index t (0 : Fin 2) * 2000 + 1 * (y 0).val = t.val * 2000 + (y 0).val; omega,
               by show win6_0.index t (1 : Fin 2) * 128 + 1 * (y 1).val = (y 1).val; omega⟩)
    (fun y => ⟨by show win6_1.index t (0 : Fin 2) * 128 + 1 * (y 0).val = (y 0).val; omega,
               by show win6_1.index t (1 : Fin 2) * 64 + 1 * (y 1).val = (y 1).val; omega⟩)
    (fun y => ⟨by show win6_2.index t (0 : Fin 2) * 2000 + 1 * (y 0).val = t.val * 2000 + (y 0).val; omega,
               by show win6_2.index t (1 : Fin 2) * 64 + 1 * (y 1).val = (y 1).val; omega⟩)
    j

/-- An index of the output array is in point `t`'s block iff each coordinate is in the block's range on its axis. -/
theorem mem_blk (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v80).slice (win6_2.rect t)).set ↔ _
  rw [View.set_slice_whole, Rect.mem_set_unit]
  exact Iff.rfl

/-- Row r of the output lies in the block of point r / 2000: the blocks cover the array. -/
theorem cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  obtain ⟨-, -, -, -, e4, e5⟩ := idx_facts t
  refine ⟨t, flush6_2 t, ?_⟩
  rw [mem_blk]
  intro a
  match a with
  | ⟨0, _⟩ =>
    show win6_2.index t (0 : Fin 2) * 2000 ≤ (i 0).val ∧ (i 0).val < win6_2.index t (0 : Fin 2) * 2000 + 2000
    omega
  | ⟨1, _⟩ =>
    show win6_2.index t (1 : Fin 2) * 64 ≤ (i 1).val ∧ (i 1).val < win6_2.index t (1 : Fin 2) * 64 + 64
    omega

/-- THE OUTPUT ARRAY after the region: the stage of the two operand arrays as the region finds them. -/
theorem out_eq (c : Dev nD) :
    (dat6 (F := Ideal) V c).arrAt 2 cfg6.N = Cert.Stages.prod64 (F := Ideal) (V c main_v63) (V c main_arg8) :=
  (dat6 V c).arrAt_eq_of_cover 2 _ (fun t _ => flushed_eq V c t) (cover)

end Cert.KernelIdeal.Region6

end
-- ==== Proof.Region7.lean ====
/-
  Region 7 as a whole-array function: its output array ends holding the log-std head's aggregate plus its bias row.

  The grid has 25 points; point t reads rows t·2000 … t·2000+1999 of the first operand and the whole second
  operand, and writes back the same rows of the output.  Each written block is the corresponding rows of the
  whole-array stage (the block lemma); the 25 blocks cover the 50000 rows, so the array is the stage.
-/
import proofs.«108035_j37495064494308_1_alg».proof.Proof.Gen.KernelIdeal.Frame
import proofs.«108035_j37495064494308_1_alg».proof.Proof.Blocks
import Idealize.ShloMosaic.Lib.Pipeline.Value

set_option maxRecDepth 16384

noncomputable section

namespace Cert.KernelIdeal.Region7

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the output's block row is the point's number, every
    other block coordinate is zero. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Every block row 0 … 24 is some point's. -/
theorem idx_onto : ∀ q : Fin 25, ∃ t : Fin cfg7.N, t.val = q.val :=
  (by decide +kernel : ∀ q : Fin 25, ∃ t : Fin grid7.N, t.val = q.val)

/-- What point `t` writes back is block `t` of the stage of the two operand arrays as the region finds them. -/
theorem flushed_eq (c : Dev nD) (t : Fin cfg7.N) :
    (dat7 (F := Ideal) V c).flushed 2 t
      = ((cfg7.win 2).blk t).view.read (Elt Ideal) (Cert.Stages.bias64 (F := Ideal) (V c main_v93) (V c main_v94)) := by
  show (cfg7.win 2).cut (grid7.coords t) ((dat7 V c).after 2 t) = _
  rw [after7_2]
  unfold out7_2
  rw [View.canon_unit_zero hz]
  simp only [View.ld_unit_zero (S := S2000x64) hz, View.ld_unit_zero (S := S1x64) hz]
  obtain ⟨e0, e1, e2, e3, e4, e5⟩ := idx_facts t
  funext j
  show k7_pay1 (iblk7 V c 0 t) (iblk7 V c 1 t) j
    = Cert.Stages.bias64 (F := Ideal) (V c main_v93) (V c main_v94) (((cfg7.win 2).blk t).view.emb j)
  exact Blocks.block7 (V c main_v93) (V c main_v94) t.val (iblk7 V c 0 t) (iblk7 V c 1 t)
    (((cfg7.win 0).blk t).view.emb) (((cfg7.win 1).blk t).view.emb) (((cfg7.win 2).blk t).view.emb)
    (fun y => rfl) (fun y => rfl)
    (fun y => ⟨by show win7_0.index t (0 : Fin 2) * 2000 + 1 * (y 0).val = t.val * 2000 + (y 0).val; omega,
               by show win7_0.index t (1 : Fin 2) * 64 + 1 * (y 1).val = (y 1).val; omega⟩)
    (fun y => ⟨by show win7_1.index t (0 : Fin 2) * 1 + 1 * (y 0).val = (y 0).val; omega,
               by show win7_1.index t (1 : Fin 2) * 64 + 1 * (y 1).val = (y 1).val; omega⟩)
    (fun y => ⟨by show win7_2.index t (0 : Fin 2) * 2000 + 1 * (y 0).val = t.val * 2000 + (y 0).val; omega,
               by show win7_2.index t (1 : Fin 2) * 64 + 1 * (y 1).val = (y 1).val; omega⟩)
    j

/-- An index of the output array is in point `t`'s block iff each coordinate is in the block's range on its axis. -/
theorem mem_blk (t : Fin cfg7.N) (i : S50000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v95).slice (win7_2.rect t)).set ↔ _
  rw [View.set_slice_whole, Rect.mem_set_unit]
  exact Iff.rfl

/-- Row r of the output lies in the block of point r / 2000: the blocks cover the array. -/
theorem cover (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  obtain ⟨-, -, -, -, e4, e5⟩ := idx_facts t
  refine ⟨t, flush7_2 t, ?_⟩
  rw [mem_blk]
  intro a
  match a with
  | ⟨0, _⟩ =>
    show win7_2.index t (0 : Fin 2) * 2000 ≤ (i 0).val ∧ (i 0).val < win7_2.index t (0 : Fin 2) * 2000 + 2000
    omega
  | ⟨1, _⟩ =>
    show win7_2.index t (1 : Fin 2) * 64 ≤ (i 1).val ∧ (i 1).val < win7_2.index t (1 : Fin 2) * 64 + 64
    omega

/-- THE OUTPUT ARRAY after the region: the stage of the two operand arrays as the region finds them. -/
theorem out_eq (c : Dev nD) :
    (dat7 (F := Ideal) V c).arrAt 2 cfg7.N = Cert.Stages.bias64 (F := Ideal) (V c main_v93) (V c main_v94) :=
  (dat7 V c).arrAt_eq_of_cover 2 _ (fun t _ => flushed_eq V c t) (cover)

end Cert.KernelIdeal.Region7

end
-- ==== Proof.Keep.lean ====
/-
  A host stretch leaves alone every buffer it does not write.

  Each stretch of host operations writes a fixed list of result buffers, one per operation.  A buffer outside that
  list holds after the stretch what it held before.
-/
import proofs.«108035_j37495064494308_1_alg».proof.Proof.Gen.KernelIdeal.Launch
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]

/-- Every operation of a literal stretch writes a buffer of the given list: the stretch unfolded, each operation's
    written set read off its builder, the buffer found in the list. -/
macro "writes_in_list" ops:ident : tactic => `(tactic| (
  simp only [$ops:ident, List.Forall, StableHlo.nullary_writes, StableHlo.unary_writes, StableHlo.binary_writes,
    StableHlo.ternary_writes, StableHlo.quaternary_writes, StableHlo.reshape_writes, Finset.singleton_subset_iff,
    List.mem_toFinset, List.mem_map]
  repeat' apply And.intro
  all_goals exact ⟨_, by decide, rfl⟩))

/-- The buffers `hostOps0` writes. -/
abbrev wr_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem keep_hostOps0 (V : Valuation τ sig (Elt F)) (r : Ref sig .tc) (hr : r ∉ wr_hostOps0) :
    StableHlo.after (hostOps0 (F := F)) V (Proc.devRef .tc r) = V (Proc.devRef .tc r) :=
  StableHlo.after_of_writes_sub (hostOps0 (F := F)) V (W := wr_hostOps0) (by writes_in_list hostOps0) hr

/-- The buffers `hostOps0_1` writes. -/
abbrev wr_hostOps0_1 : List (Ref sig .tc) := [main_call0_v0, main_call0_v1, main_v16]
theorem keep_hostOps0_1 (V : Valuation τ sig (Elt F)) (r : Ref sig .tc) (hr : r ∉ wr_hostOps0_1) :
    StableHlo.after (hostOps0_1 (F := F)) V (Proc.devRef .tc r) = V (Proc.devRef .tc r) :=
  StableHlo.after_of_writes_sub (hostOps0_1 (F := F)) V (W := wr_hostOps0_1) (by writes_in_list hostOps0_1) hr

/-- The buffers `hostOps0_2` writes. -/
abbrev wr_hostOps0_2 : List (Ref sig .tc) := [main_c, main_v17, main_v18, main_c_4, main_v19, main_v20, main_v21, main_v22, main_v23, main_c_5, main_v24, main_v25, main_c_6, main_v26, main_v27, main_v28, main_v29, main_v30, main_v31]
theorem keep_hostOps0_2 (V : Valuation τ sig (Elt F)) (r : Ref sig .tc) (hr : r ∉ wr_hostOps0_2) :
    StableHlo.after (hostOps0_2 (F := F)) V (Proc.devRef .tc r) = V (Proc.devRef .tc r) :=
  StableHlo.after_of_writes_sub (hostOps0_2 (F := F)) V (W := wr_hostOps0_2) (by writes_in_list hostOps0_2) hr

/-- The buffers `hostOps1` writes. -/
abbrev wr_hostOps1 : List (Ref sig .tc) := [main_c_7, main_v33, main_v34, main_c_8, main_v35, main_v36, main_v37, main_v38, main_v39, main_v40, main_v41, main_v42, main_cst_9, main_v43, main_v44, main_v45, main_v46]
theorem keep_hostOps1 (V : Valuation τ sig (Elt F)) (r : Ref sig .tc) (hr : r ∉ wr_hostOps1) :
    StableHlo.after (hostOps1 (F := F)) V (Proc.devRef .tc r) = V (Proc.devRef .tc r) :=
  StableHlo.after_of_writes_sub (hostOps1 (F := F)) V (W := wr_hostOps1) (by writes_in_list hostOps1) hr

/-- The buffers `hostOps3` writes. -/
abbrev wr_hostOps3 : List (Ref sig .tc) := [main_c_10, main_v49, main_v50, main_c_11, main_v51, main_v52, main_v53, main_v54, main_v55, main_v56, main_v57, main_v58, main_cst_12, main_v59, main_v60, main_v61, main_v62]
theorem keep_hostOps3 (V : Valuation τ sig (Elt F)) (r : Ref sig .tc) (hr : r ∉ wr_hostOps3) :
    StableHlo.after (hostOps3 (F := F)) V (Proc.devRef .tc r) = V (Proc.devRef .tc r) :=
  StableHlo.after_of_writes_sub (hostOps3 (F := F)) V (W := wr_hostOps3) (by writes_in_list hostOps3) hr

/-- The buffers `hostOps5` writes. -/
abbrev wr_hostOps5 : List (Ref sig .tc) := [main_c_13, main_v65, main_v66, main_c_14, main_v67, main_v68, main_v69, main_v70, main_v71, main_v72, main_v73, main_v74, main_cst_15, main_v75, main_v76, main_v77, main_v78]
theorem keep_hostOps5 (V : Valuation τ sig (Elt F)) (r : Ref sig .tc) (hr : r ∉ wr_hostOps5) :
    StableHlo.after (hostOps5 (F := F)) V (Proc.devRef .tc r) = V (Proc.devRef .tc r) :=
  StableHlo.after_of_writes_sub (hostOps5 (F := F)) V (W := wr_hostOps5) (by writes_in_list hostOps5) hr

/-- The buffers `hostOps7` writes. -/
abbrev wr_hostOps7 : List (Ref sig .tc) := [main_c_16, main_v81, main_v82, main_c_17, main_v83, main_v84, main_v85, main_v86, main_v87, main_v88, main_v89, main_v90, main_cst_18, main_v91, main_v92, main_v93, main_v94]
theorem keep_hostOps7 (V : Valuation τ sig (Elt F)) (r : Ref sig .tc) (hr : r ∉ wr_hostOps7) :
    StableHlo.after (hostOps7 (F := F)) V (Proc.devRef .tc r) = V (Proc.devRef .tc r) :=
  StableHlo.after_of_writes_sub (hostOps7 (F := F)) V (W := wr_hostOps7) (by writes_in_list hostOps7) hr

end Cert.KernelIdeal.Keep

end
-- ==== Proof.HostStages.lean ====
/-
  What each host stretch computes, for any contents it starts from.

  The first three stretches build, from the edge list alone, the source and target index vectors (the edges followed
  by the self loops) and the edge weights.  Each later stretch gathers the rows of the preceding product at the
  sources, scales them by the edge weights and sums them into the targets — `Stages.edgeSum128` / `edgeSum64` of the
  buffers it reads — and reshapes the layer's bias vector to one row.
-/
import proofs.«108035_j37495064494308_1_alg».proof.Proof.Gen.KernelIdeal.Launch
import proofs.«108035_j37495064494308_1_alg».proof.Proof.Stages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## A vector reshaped to one row is the vector broadcast along a new leading axis -/

theorem row128_cast (b : (⟨S128, .f32⟩ : BufTy).Contents (Elt Ideal)) (h : S128.ShapeCasts S1x128) :
    shapeCast S1x128 b h = Cert.Stages.row128 (F := Ideal) b := by
  funext i
  obtain ⟨u, k, rfl⟩ : ∃ (u : Fin 1) (k : Fin 128), i = ix2 u k := ⟨i 0, i 1, eq_ix2 i⟩
  rw [shapeCast_a_1a_apply]
  unfold Cert.Stages.row128
  exact (broadcastInDim_apply _ Cert.ReferenceIdeal.Gen.bcast_S128_S1x128_1 b (ix2 u k) (ix1 k) (fun a => match a with
    | ⟨0, _⟩ => by show k.val = if (128 : Nat) = 1 then 0 else k.val; rw [if_neg (by decide)])).symm

theorem row64_cast (b : (⟨S64, .f32⟩ : BufTy).Contents (Elt Ideal)) (h : S64.ShapeCasts S1x64) :
    shapeCast S1x64 b h = Cert.Stages.row64 (F := Ideal) b := by
  funext i
  obtain ⟨u, k, rfl⟩ : ∃ (u : Fin 1) (k : Fin 64), i = ix2 u k := ⟨i 0, i 1, eq_ix2 i⟩
  rw [shapeCast_a_1a_apply]
  unfold Cert.Stages.row64
  exact (broadcastInDim_apply _ Cert.ReferenceIdeal.Gen.bcast_S64_S1x64_1 b (ix2 u k) (ix1 k) (fun a => match a with
    | ⟨0, _⟩ => by show k.val = if (64 : Nat) = 1 then 0 else k.val; rw [if_neg (by decide)])).symm

/-! ## The index vectors and the edge weights, from the launch contents of the edge list -/

set_option maxHeartbeats 4000000 in
/-- After the first two stretches the source vector is the edge list's first row followed by the self loops. -/
theorem graph_src (V : Valuation τ sig (Elt F)) :
    StableHlo.after (hostOps0_1 (F := F)) (StableHlo.after (hostOps0 (F := F)) V) (Proc.devRef .tc main_v3)
      = Cert.Stages.srcIdx (F := F) (V (Proc.devRef .tc main_arg1)) := by
  dsimp only [hostOps0, hostOps0_1]
  after_results_simp
  rfl

set_option maxHeartbeats 4000000 in
/-- The target vector: the second row followed by the self loops. -/
theorem graph_dst (V : Valuation τ sig (Elt F)) :
    StableHlo.after (hostOps0_1 (F := F)) (StableHlo.after (hostOps0 (F := F)) V) (Proc.devRef .tc main_v6)
      = Cert.Stages.dstIdx (F := F) (V (Proc.devRef .tc main_arg1)) := by
  dsimp only [hostOps0, hostOps0_1]
  after_results_simp
  rfl

set_option maxHeartbeats 4000000 in
/-- The inverse root degree of every node (zero where the degree is zero). -/
theorem graph_inv (V : Valuation τ sig (Elt F)) :
    StableHlo.after (hostOps0_1 (F := F)) (StableHlo.after (hostOps0 (F := F)) V) (Proc.devRef .tc main_v16)
      = Cert.Stages.invSqrtDeg (F := F) (V (Proc.devRef .tc main_arg1)) := by
  dsimp only [hostOps0, hostOps0_1]
  after_results_simp
  rfl

/-- An edge's weight from the nodes' inverse root degrees: the two ends' values multiplied. -/
def weightOf (dis : (⟨Cert.ReferenceIdeal.S50000, .f32⟩ : BufTy).Contents (Elt F)) (s d : (⟨Cert.ReferenceIdeal.S850000, .i32⟩ : BufTy).Contents (Elt F)) : (⟨Cert.ReferenceIdeal.S850000, .f32⟩ : BufTy).Contents (Elt F) :=
  mulf (Host.gather Cert.ReferenceIdeal.gather_S50000_S850000x1_S850000_n_0_n_n_0_1_1 dis
      (broadcastInDim Cert.ReferenceIdeal.S850000x1 ![0] Cert.ReferenceIdeal.Gen.bcast_S850000_S850000x1_0 (Cert.Stages.wrapIdx (F := F) s) : (⟨Cert.ReferenceIdeal.S850000x1, .i32⟩ : BufTy).Contents (Elt F)))
    (Host.gather Cert.ReferenceIdeal.gather_S50000_S850000x1_S850000_n_0_n_n_0_1_1 dis
      (broadcastInDim Cert.ReferenceIdeal.S850000x1 ![0] Cert.ReferenceIdeal.Gen.bcast_S850000_S850000x1_0 (Cert.Stages.wrapIdx (F := F) d) : (⟨Cert.ReferenceIdeal.S850000x1, .i32⟩ : BufTy).Contents (Elt F)))

/-- The edge weights of the whole graph are `weightOf` of its inverse root degrees and its two index vectors. -/
theorem edgeNorm_eq (e : (⟨Cert.ReferenceIdeal.S2x800000, .i32⟩ : BufTy).Contents (Elt F)) :
    Cert.Stages.edgeNorm (F := F) e
      = weightOf (Cert.Stages.invSqrtDeg (F := F) e) (Cert.Stages.srcIdx (F := F) e) (Cert.Stages.dstIdx (F := F) e) := rfl

set_option maxHeartbeats 4000000 in
/-- The third stretch: each edge's weight from the inverse root degrees and the two index vectors it finds. -/
theorem graph_nrm (V : Valuation τ sig (Elt F)) :
    StableHlo.after (hostOps0_2 (F := F)) V (Proc.devRef .tc main_v31)
      = weightOf (F := F) (V (Proc.devRef .tc main_v16)) (V (Proc.devRef .tc main_v3)) (V (Proc.devRef .tc main_v6)) := by
  dsimp only [hostOps0_2]
  after_results_simp
  rfl

/-! ## The four aggregation stretches -/

set_option maxHeartbeats 4000000 in
/-- The first layer's aggregation of the product in `main_v32`. -/
theorem agg_hostOps1 (V : Valuation τ sig (Elt F)) :
    StableHlo.after (hostOps1 (F := F)) V (Proc.devRef .tc main_v45)
      = Cert.Stages.edgeSum128 (F := F) (V (Proc.devRef .tc main_v32)) (V (Proc.devRef .tc main_v3)) (V (Proc.devRef .tc main_v6)) (V (Proc.devRef .tc main_v31)) := by
  dsimp only [hostOps1]
  after_results_simp
  rfl

/-- The bias vector, reshaped to one row for the next region. -/
theorem row_hostOps1 (V : Valuation τ sig (Elt Ideal)) :
    StableHlo.after (hostOps1 (F := Ideal)) V (Proc.devRef .tc main_v46) = Cert.Stages.row128 (F := Ideal) (V (Proc.devRef .tc main_arg3)) := by
  dsimp only [hostOps1]
  after_results
  exact row128_cast _ _

set_option maxHeartbeats 4000000 in
/-- The second layer's aggregation of the product in `main_v48`. -/
theorem agg_hostOps3 (V : Valuation τ sig (Elt F)) :
    StableHlo.after (hostOps3 (F := F)) V (Proc.devRef .tc main_v61)
      = Cert.Stages.edgeSum128 (F := F) (V (Proc.devRef .tc main_v48)) (V (Proc.devRef .tc main_v3)) (V (Proc.devRef .tc main_v6)) (V (Proc.devRef .tc main_v31)) := by
  dsimp only [hostOps3]
  after_results_simp
  rfl

/-- The bias vector, reshaped to one row for the next region. -/
theorem row_hostOps3 (V : Valuation τ sig (Elt Ideal)) :
    StableHlo.after (hostOps3 (F := Ideal)) V (Proc.devRef .tc main_v62) = Cert.Stages.row128 (F := Ideal) (V (Proc.devRef .tc main_arg5)) := by
  dsimp only [hostOps3]
  after_results
  exact row128_cast _ _

set_option maxHeartbeats 4000000 in
/-- The mean head's aggregation of the product in `main_v64`. -/
theorem agg_hostOps5 (V : Valuation τ sig (Elt F)) :
    StableHlo.after (hostOps5 (F := F)) V (Proc.devRef .tc main_v77)
      = Cert.Stages.edgeSum64 (F := F) (V (Proc.devRef .tc main_v64)) (V (Proc.devRef .tc main_v3)) (V (Proc.devRef .tc main_v6)) (V (Proc.devRef .tc main_v31)) := by
  dsimp only [hostOps5]
  after_results_simp
  rfl

/-- The bias vector, reshaped to one row for the next region. -/
theorem row_hostOps5 (V : Valuation τ sig (Elt Ideal)) :
    StableHlo.after (hostOps5 (F := Ideal)) V (Proc.devRef .tc main_v78) = Cert.Stages.row64 (F := Ideal) (V (Proc.devRef .tc main_arg7)) := by
  dsimp only [hostOps5]
  after_results
  exact row64_cast _ _

set_option maxHeartbeats 4000000 in
/-- The log-std head's aggregation of the product in `main_v80`. -/
theorem agg_hostOps7 (V : Valuation τ sig (Elt F)) :
    StableHlo.after (hostOps7 (F := F)) V (Proc.devRef .tc main_v93)
      = Cert.Stages.edgeSum64 (F := F) (V (Proc.devRef .tc main_v80)) (V (Proc.devRef .tc main_v3)) (V (Proc.devRef .tc main_v6)) (V (Proc.devRef .tc main_v31)) := by
  dsimp only [hostOps7]
  after_results_simp
  rfl

/-- The bias vector, reshaped to one row for the next region. -/
theorem row_hostOps7 (V : Valuation τ sig (Elt Ideal)) :
    StableHlo.after (hostOps7 (F := Ideal)) V (Proc.devRef .tc main_v94) = Cert.Stages.row64 (F := Ideal) (V (Proc.devRef .tc main_arg9)) := by
  dsimp only [hostOps7]
  after_results
  exact row64_cast _ _

end Cert.KernelIdeal.HostStages

end
-- ==== Proof.Walk.lean ====
/-
  The idealized kernel's two results as functions of its arguments.

  Walking @main's segment boundaries from the launch: the first three host stretches make the index vectors and
  the edge weights from the edge list; then, layer by layer, a region forms the product of the current features
  with the layer's weights, a host stretch aggregates it over the edges and reshapes the bias, and a region adds
  the bias (and, in the hidden layers, meets the sum with zero).  A buffer made at one boundary and read at a later
  one is carried unchanged across the segments between, none of which writes it.  At the last boundary the two
  result buffers hold the two output layers of the second hidden layer's features.
-/
import proofs.«108035_j37495064494308_1_alg».proof.Proof.Gen.KernelIdeal.Frame
import proofs.«108035_j37495064494308_1_alg».proof.Proof.Region0
import proofs.«108035_j37495064494308_1_alg».proof.Proof.Region1
import proofs.«108035_j37495064494308_1_alg».proof.Proof.Region2
import proofs.«108035_j37495064494308_1_alg».proof.Proof.Region3
import proofs.«108035_j37495064494308_1_alg».proof.Proof.Region4
import proofs.«108035_j37495064494308_1_alg».proof.Proof.Region5
import proofs.«108035_j37495064494308_1_alg».proof.Proof.Region6
import proofs.«108035_j37495064494308_1_alg».proof.Proof.Region7
import proofs.«108035_j37495064494308_1_alg».proof.Proof.Keep
import proofs.«108035_j37495064494308_1_alg».proof.Proof.HostStages

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## The arguments, unchanged up to the boundary where each is read -/
theorem arg0_at3 : W3 m ρ c (Proc.devRef .tc main_arg0) = (m ((c : Thread nD τ).loc main_arg0)) :=
  ((Keep.keep_hostOps0_2 (W2 m ρ c) main_arg0 (by decide)).trans ((Keep.keep_hostOps0_1 (W1 m ρ c) main_arg0 (by decide)).trans (Keep.keep_hostOps0 (W0 m ρ c) main_arg0 (by decide)))).trans rfl
theorem arg2_at3 : W3 m ρ c (Proc.devRef .tc main_arg2) = (m ((c : Thread nD τ).loc main_arg2)) :=
  ((Keep.keep_hostOps0_2 (W2 m ρ c) main_arg2 (by decide)).trans ((Keep.keep_hostOps0_1 (W1 m ρ c) main_arg2 (by decide)).trans (Keep.keep_hostOps0 (W0 m ρ c) main_arg2 (by decide)))).trans rfl
theorem arg3_at4 : W4 m ρ c (Proc.devRef .tc main_arg3) = (m ((c : Thread nD τ).loc main_arg3)) :=
  ((W4_of_ne m ρ c main_arg3 (by decide)).trans ((Keep.keep_hostOps0_2 (W2 m ρ c) main_arg3 (by decide)).trans ((Keep.keep_hostOps0_1 (W1 m ρ c) main_arg3 (by decide)).trans (Keep.keep_hostOps0 (W0 m ρ c) main_arg3 (by decide))))).trans rfl
theorem arg4_at6 : W6 m ρ c (Proc.devRef .tc main_arg4) = (m ((c : Thread nD τ).loc main_arg4)) :=
  ((W6_of_ne m ρ c main_arg4 (by decide)).trans ((Keep.keep_hostOps1 (W4 m ρ c) main_arg4 (by decide)).trans ((W4_of_ne m ρ c main_arg4 (by decide)).trans ((Keep.keep_hostOps0_2 (W2 m ρ c) main_arg4 (by decide)).trans ((Keep.keep_hostOps0_1 (W1 m ρ c) main_arg4 (by decide)).trans (Keep.keep_hostOps0 (W0 m ρ c) main_arg4 (by decide))))))).trans rfl
theorem arg5_at7 : W7 m ρ c (Proc.devRef .tc main_arg5) = (m ((c : Thread nD τ).loc main_arg5)) :=
  ((W7_of_ne m ρ c main_arg5 (by decide)).trans ((W6_of_ne m ρ c main_arg5 (by decide)).trans ((Keep.keep_hostOps1 (W4 m ρ c) main_arg5 (by decide)).trans ((W4_of_ne m ρ c main_arg5 (by decide)).trans ((Keep.keep_hostOps0_2 (W2 m ρ c) main_arg5 (by decide)).trans ((Keep.keep_hostOps0_1 (W1 m ρ c) main_arg5 (by decide)).trans (Keep.keep_hostOps0 (W0 m ρ c) main_arg5 (by decide)))))))).trans rfl
theorem arg6_at9 : W9 m ρ c (Proc.devRef .tc main_arg6) = (m ((c : Thread nD τ).loc main_arg6)) :=
  ((W9_of_ne m ρ c main_arg6 (by decide)).trans ((Keep.keep_hostOps3 (W7 m ρ c) main_arg6 (by decide)).trans ((W7_of_ne m ρ c main_arg6 (by decide)).trans ((W6_of_ne m ρ c main_arg6 (by decide)).trans ((Keep.keep_hostOps1 (W4 m ρ c) main_arg6 (by decide)).trans ((W4_of_ne m ρ c main_arg6 (by decide)).trans ((Keep.keep_hostOps0_2 (W2 m ρ c) main_arg6 (by decide)).trans ((Keep.keep_hostOps0_1 (W1 m ρ c) main_arg6 (by decide)).trans (Keep.keep_hostOps0 (W0 m ρ c) main_arg6 (by decide)))))))))).trans rfl
theorem arg7_at10 : W10 m ρ c (Proc.devRef .tc main_arg7) = (m ((c : Thread nD τ).loc main_arg7)) :=
  ((W10_of_ne m ρ c main_arg7 (by decide)).trans ((W9_of_ne m ρ c main_arg7 (by decide)).trans ((Keep.keep_hostOps3 (W7 m ρ c) main_arg7 (by decide)).trans ((W7_of_ne m ρ c main_arg7 (by decide)).trans ((W6_of_ne m ρ c main_arg7 (by decide)).trans ((Keep.keep_hostOps1 (W4 m ρ c) main_arg7 (by decide)).trans ((W4_of_ne m ρ c main_arg7 (by decide)).trans ((Keep.keep_hostOps0_2 (W2 m ρ c) main_arg7 (by decide)).trans ((Keep.keep_hostOps0_1 (W1 m ρ c) main_arg7 (by decide)).trans (Keep.keep_hostOps0 (W0 m ρ c) main_arg7 (by decide))))))))))).trans rfl
theorem arg8_at12 : W12 m ρ c (Proc.devRef .tc main_arg8) = (m ((c : Thread nD τ).loc main_arg8)) :=
  ((W12_of_ne m ρ c main_arg8 (by decide)).trans ((Keep.keep_hostOps5 (W10 m ρ c) main_arg8 (by decide)).trans ((W10_of_ne m ρ c main_arg8 (by decide)).trans ((W9_of_ne m ρ c main_arg8 (by decide)).trans ((Keep.keep_hostOps3 (W7 m ρ c) main_arg8 (by decide)).trans ((W7_of_ne m ρ c main_arg8 (by decide)).trans ((W6_of_ne m ρ c main_arg8 (by decide)).trans ((Keep.keep_hostOps1 (W4 m ρ c) main_arg8 (by decide)).trans ((W4_of_ne m ρ c main_arg8 (by decide)).trans ((Keep.keep_hostOps0_2 (W2 m ρ c) main_arg8 (by decide)).trans ((Keep.keep_hostOps0_1 (W1 m ρ c) main_arg8 (by decide)).trans (Keep.keep_hostOps0 (W0 m ρ c) main_arg8 (by decide))))))))))))).trans rfl
theorem arg9_at13 : W13 m ρ c (Proc.devRef .tc main_arg9) = (m ((c : Thread nD τ).loc main_arg9)) :=
  ((W13_of_ne m ρ c main_arg9 (by decide)).trans ((W12_of_ne m ρ c main_arg9 (by decide)).trans ((Keep.keep_hostOps5 (W10 m ρ c) main_arg9 (by decide)).trans ((W10_of_ne m ρ c main_arg9 (by decide)).trans ((W9_of_ne m ρ c main_arg9 (by decide)).trans ((Keep.keep_hostOps3 (W7 m ρ c) main_arg9 (by decide)).trans ((W7_of_ne m ρ c main_arg9 (by decide)).trans ((W6_of_ne m ρ c main_arg9 (by decide)).trans ((Keep.keep_hostOps1 (W4 m ρ c) main_arg9 (by decide)).trans ((W4_of_ne m ρ c main_arg9 (by decide)).trans ((Keep.keep_hostOps0_2 (W2 m ρ c) main_arg9 (by decide)).trans ((Keep.keep_hostOps0_1 (W1 m ρ c) main_arg9 (by decide)).trans (Keep.keep_hostOps0 (W0 m ρ c) main_arg9 (by decide)))))))))))))).trans rfl

/-! ## The index vectors and the edge weights: made before region 0, read by every aggregation -/

theorem src_at2 : W2 m ρ c (Proc.devRef .tc main_v3) = (Cert.Stages.srcIdx (F := Ideal) (m ((c : Thread nD τ).loc main_arg1))) := (HostStages.graph_src (W0 m ρ c)).trans rfl
theorem dst_at2 : W2 m ρ c (Proc.devRef .tc main_v6) = (Cert.Stages.dstIdx (F := Ideal) (m ((c : Thread nD τ).loc main_arg1))) := (HostStages.graph_dst (W0 m ρ c)).trans rfl
theorem inv_at2 : W2 m ρ c (Proc.devRef .tc main_v16) = (Cert.Stages.invSqrtDeg (F := Ideal) (m ((c : Thread nD τ).loc main_arg1))) := (HostStages.graph_inv (W0 m ρ c)).trans rfl
theorem src_at3 : W3 m ρ c (Proc.devRef .tc main_v3) = (Cert.Stages.srcIdx (F := Ideal) (m ((c : Thread nD τ).loc main_arg1))) :=
  (Keep.keep_hostOps0_2 (W2 m ρ c) main_v3 (by decide)).trans (src_at2 m ρ c)
theorem dst_at3 : W3 m ρ c (Proc.devRef .tc main_v6) = (Cert.Stages.dstIdx (F := Ideal) (m ((c : Thread nD τ).loc main_arg1))) :=
  (Keep.keep_hostOps0_2 (W2 m ρ c) main_v6 (by decide)).trans (dst_at2 m ρ c)
theorem nrm_at3 : W3 m ρ c (Proc.devRef .tc main_v31) = (Cert.Stages.edgeNorm (F := Ideal) (m ((c : Thread nD τ).loc main_arg1))) :=
  (HostStages.graph_nrm (W2 m ρ c)).trans (by rw [inv_at2 m ρ c, src_at2 m ρ c, dst_at2 m ρ c, HostStages.edgeNorm_eq])
theorem src_at4 : W4 m ρ c (Proc.devRef .tc main_v3) = (Cert.Stages.srcIdx (F := Ideal) (m ((c : Thread nD τ).loc main_arg1))) :=
  (W4_of_ne m ρ c main_v3 (by decide)).trans (src_at3 m ρ c)
theorem dst_at4 : W4 m ρ c (Proc.devRef .tc main_v6) = (Cert.Stages.dstIdx (F := Ideal) (m ((c : Thread nD τ).loc main_arg1))) :=
  (W4_of_ne m ρ c main_v6 (by decide)).trans (dst_at3 m ρ c)
theorem nrm_at4 : W4 m ρ c (Proc.devRef .tc main_v31) = (Cert.Stages.edgeNorm (F := Ideal) (m ((c : Thread nD τ).loc main_arg1))) :=
  (W4_of_ne m ρ c main_v31 (by decide)).trans (nrm_at3 m ρ c)
theorem src_at7 : W7 m ρ c (Proc.devRef .tc main_v3) = (Cert.Stages.srcIdx (F := Ideal) (m ((c : Thread nD τ).loc main_arg1))) :=
  ((W7_of_ne m ρ c main_v3 (by decide)).trans ((W6_of_ne m ρ c main_v3 (by decide)).trans (Keep.keep_hostOps1 (W4 m ρ c) main_v3 (by decide)))).trans (src_at4 m ρ c)
theorem dst_at7 : W7 m ρ c (Proc.devRef .tc main_v6) = (Cert.Stages.dstIdx (F := Ideal) (m ((c : Thread nD τ).loc main_arg1))) :=
  ((W7_of_ne m ρ c main_v6 (by decide)).trans ((W6_of_ne m ρ c main_v6 (by decide)).trans (Keep.keep_hostOps1 (W4 m ρ c) main_v6 (by decide)))).trans (dst_at4 m ρ c)
theorem nrm_at7 : W7 m ρ c (Proc.devRef .tc main_v31) = (Cert.Stages.edgeNorm (F := Ideal) (m ((c : Thread nD τ).loc main_arg1))) :=
  ((W7_of_ne m ρ c main_v31 (by decide)).trans ((W6_of_ne m ρ c main_v31 (by decide)).trans (Keep.keep_hostOps1 (W4 m ρ c) main_v31 (by decide)))).trans (nrm_at4 m ρ c)
theorem src_at10 : W10 m ρ c (Proc.devRef .tc main_v3) = (Cert.Stages.srcIdx (F := Ideal) (m ((c : Thread nD τ).loc main_arg1))) :=
  ((W10_of_ne m ρ c main_v3 (by decide)).trans ((W9_of_ne m ρ c main_v3 (by decide)).trans (Keep.keep_hostOps3 (W7 m ρ c) main_v3 (by decide)))).trans (src_at7 m ρ c)
theorem dst_at10 : W10 m ρ c (Proc.devRef .tc main_v6) = (Cert.Stages.dstIdx (F := Ideal) (m ((c : Thread nD τ).loc main_arg1))) :=
  ((W10_of_ne m ρ c main_v6 (by decide)).trans ((W9_of_ne m ρ c main_v6 (by decide)).trans (Keep.keep_hostOps3 (W7 m ρ c) main_v6 (by decide)))).trans (dst_at7 m ρ c)
theorem nrm_at10 : W10 m ρ c (Proc.devRef .tc main_v31) = (Cert.Stages.edgeNorm (F := Ideal) (m ((c : Thread nD τ).loc main_arg1))) :=
  ((W10_of_ne m ρ c main_v31 (by decide)).trans ((W9_of_ne m ρ c main_v31 (by decide)).trans (Keep.keep_hostOps3 (W7 m ρ c) main_v31 (by decide)))).trans (nrm_at7 m ρ c)
theorem src_at13 : W13 m ρ c (Proc.devRef .tc main_v3) = (Cert.Stages.srcIdx (F := Ideal) (m ((c : Thread nD τ).loc main_arg1))) :=
  ((W13_of_ne m ρ c main_v3 (by decide)).trans ((W12_of_ne m ρ c main_v3 (by decide)).trans (Keep.keep_hostOps5 (W10 m ρ c) main_v3 (by decide)))).trans (src_at10 m ρ c)
theorem dst_at13 : W13 m ρ c (Proc.devRef .tc main_v6) = (Cert.Stages.dstIdx (F := Ideal) (m ((c : Thread nD τ).loc main_arg1))) :=
  ((W13_of_ne m ρ c main_v6 (by decide)).trans ((W12_of_ne m ρ c main_v6 (by decide)).trans (Keep.keep_hostOps5 (W10 m ρ c) main_v6 (by decide)))).trans (dst_at10 m ρ c)
theorem nrm_at13 : W13 m ρ c (Proc.devRef .tc main_v31) = (Cert.Stages.edgeNorm (F := Ideal) (m ((c : Thread nD τ).loc main_arg1))) :=
  ((W13_of_ne m ρ c main_v31 (by decide)).trans ((W12_of_ne m ρ c main_v31 (by decide)).trans (Keep.keep_hostOps5 (W10 m ρ c) main_v31 (by decide)))).trans (nrm_at10 m ρ c)

/-! ## Layer 1 -/

theorem prod1 : W4 m ρ c (Proc.devRef .tc main_v32) = (Cert.Stages.prod512 (F := Ideal) (m ((c : Thread nD τ).loc main_arg0)) (m ((c : Thread nD τ).loc main_arg2))) :=
  (W4_arr m ρ c 2).trans ((Region0.out_eq (V3 m ρ) c).trans
    (congrArg₂ (Cert.Stages.prod512 (F := Ideal)) (arg0_at3 m ρ c) (arg2_at3 m ρ c)))
theorem agg1 : W5 m ρ c (Proc.devRef .tc main_v45) = Cert.Stages.edgeSum128 (F := Ideal) (Cert.Stages.prod512 (F := Ideal) (m ((c : Thread nD τ).loc main_arg0)) (m ((c : Thread nD τ).loc main_arg2))) (Cert.Stages.srcIdx (F := Ideal) (m ((c : Thread nD τ).loc main_arg1))) (Cert.Stages.dstIdx (F := Ideal) (m ((c : Thread nD τ).loc main_arg1))) (Cert.Stages.edgeNorm (F := Ideal) (m ((c : Thread nD τ).loc main_arg1))) :=
  (HostStages.agg_hostOps1 (W4 m ρ c)).trans (by rw [prod1 m ρ c, src_at4 m ρ c, dst_at4 m ρ c, nrm_at4 m ρ c])
theorem row1 : W5 m ρ c (Proc.devRef .tc main_v46) = Cert.Stages.row128 (F := Ideal) (m ((c : Thread nD τ).loc main_arg3)) :=
  (HostStages.row_hostOps1 (W4 m ρ c)).trans (by rw [arg3_at4 m ρ c])
theorem feat1 : W6 m ρ c (Proc.devRef .tc main_v47) = (Cert.Stages.hidden1 (F := Ideal) (m ((c : Thread nD τ).loc main_arg0)) (m ((c : Thread nD τ).loc main_arg1)) (m ((c : Thread nD τ).loc main_arg2)) (m ((c : Thread nD τ).loc main_arg3))) :=
  (W6_arr m ρ c 2).trans ((Region1.out_eq (V5 m ρ) c).trans
    (congrArg₂ (Cert.Stages.biasRelu128 (F := Ideal)) (agg1 m ρ c) (row1 m ρ c)))

/-! ## Layer 2 -/

theorem prod2 : W7 m ρ c (Proc.devRef .tc main_v48) = (Cert.Stages.prod128 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg4))) :=
  (W7_arr m ρ c 2).trans ((Region2.out_eq (V6 m ρ) c).trans
    (congrArg₂ (Cert.Stages.prod128 (F := Ideal)) (feat1 m ρ c) (arg4_at6 m ρ c)))
theorem agg2 : W8 m ρ c (Proc.devRef .tc main_v61) = Cert.Stages.edgeSum128 (F := Ideal) (Cert.Stages.prod128 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg4))) (Cert.Stages.srcIdx (F := Ideal) (m ((c : Thread nD τ).loc main_arg1))) (Cert.Stages.dstIdx (F := Ideal) (m ((c : Thread nD τ).loc main_arg1))) (Cert.Stages.edgeNorm (F := Ideal) (m ((c : Thread nD τ).loc main_arg1))) :=
  (HostStages.agg_hostOps3 (W7 m ρ c)).trans (by rw [prod2 m ρ c, src_at7 m ρ c, dst_at7 m ρ c, nrm_at7 m ρ c])
theorem row2 : W8 m ρ c (Proc.devRef .tc main_v62) = Cert.Stages.row128 (F := Ideal) (m ((c : Thread nD τ).loc main_arg5)) :=
  (HostStages.row_hostOps3 (W7 m ρ c)).trans (by rw [arg5_at7 m ρ c])
theorem feat2 : W9 m ρ c (Proc.devRef .tc main_v63) = (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W9_arr m ρ c 2).trans ((Region3.out_eq (V8 m ρ) c).trans
    (congrArg₂ (Cert.Stages.biasRelu128 (F := Ideal)) (agg2 m ρ c) (row2 m ρ c)))

/-! ## The mean head -/

theorem prod3 : W10 m ρ c (Proc.devRef .tc main_v64) = (Cert.Stages.prod64 (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) :=
  (W10_arr m ρ c 2).trans ((Region4.out_eq (V9 m ρ) c).trans
    (congrArg₂ (Cert.Stages.prod64 (F := Ideal)) (feat2 m ρ c) (arg6_at9 m ρ c)))
/-- Region 4 reads the second hidden features through an input window and leaves them as they were. -/
theorem feat2_at10 : W10 m ρ c (Proc.devRef .tc main_v63) = (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W10_arr m ρ c 0).trans (((dat4 (V9 m ρ) c).arrAt_in 0 rfl _).trans ((A_eq4 (V9 m ρ) c 0).trans (feat2 m ρ c)))
theorem agg3 : W11 m ρ c (Proc.devRef .tc main_v77) = Cert.Stages.edgeSum64 (F := Ideal) (Cert.Stages.prod64 (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) (Cert.Stages.srcIdx (F := Ideal) (m ((c : Thread nD τ).loc main_arg1))) (Cert.Stages.dstIdx (F := Ideal) (m ((c : Thread nD τ).loc main_arg1))) (Cert.Stages.edgeNorm (F := Ideal) (m ((c : Thread nD τ).loc main_arg1))) :=
  (HostStages.agg_hostOps5 (W10 m ρ c)).trans (by rw [prod3 m ρ c, src_at10 m ρ c, dst_at10 m ρ c, nrm_at10 m ρ c])
theorem row3 : W11 m ρ c (Proc.devRef .tc main_v78) = Cert.Stages.row64 (F := Ideal) (m ((c : Thread nD τ).loc main_arg7)) :=
  (HostStages.row_hostOps5 (W10 m ρ c)).trans (by rw [arg7_at10 m ρ c])
theorem out0_at12 : W12 m ρ c (Proc.devRef .tc main_v79) = Cert.Stages.outLayer (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7)) :=
  (W12_arr m ρ c 2).trans ((Region5.out_eq (V11 m ρ) c).trans
    (congrArg₂ (Cert.Stages.bias64 (F := Ideal)) (agg3 m ρ c) (row3 m ρ c)))

/-! ## The log-std head -/

theorem feat2_at12 : W12 m ρ c (Proc.devRef .tc main_v63) = (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  ((W12_of_ne m ρ c main_v63 (by decide)).trans (Keep.keep_hostOps5 (W10 m ρ c) main_v63 (by decide))).trans (feat2_at10 m ρ c)
theorem prod4 : W13 m ρ c (Proc.devRef .tc main_v80) = (Cert.Stages.prod64 (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg8))) :=
  (W13_arr m ρ c 2).trans ((Region6.out_eq (V12 m ρ) c).trans
    (congrArg₂ (Cert.Stages.prod64 (F := Ideal)) (feat2_at12 m ρ c) (arg8_at12 m ρ c)))
theorem agg4 : W14 m ρ c (Proc.devRef .tc main_v93) = Cert.Stages.edgeSum64 (F := Ideal) (Cert.Stages.prod64 (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg8))) (Cert.Stages.srcIdx (F := Ideal) (m ((c : Thread nD τ).loc main_arg1))) (Cert.Stages.dstIdx (F := Ideal) (m ((c : Thread nD τ).loc main_arg1))) (Cert.Stages.edgeNorm (F := Ideal) (m ((c : Thread nD τ).loc main_arg1))) :=
  (HostStages.agg_hostOps7 (W13 m ρ c)).trans (by rw [prod4 m ρ c, src_at13 m ρ c, dst_at13 m ρ c, nrm_at13 m ρ c])
theorem row4 : W14 m ρ c (Proc.devRef .tc main_v94) = Cert.Stages.row64 (F := Ideal) (m ((c : Thread nD τ).loc main_arg9)) :=
  (HostStages.row_hostOps7 (W13 m ρ c)).trans (by rw [arg9_at13 m ρ c])

/-! ## The two results at the last boundary -/

/-- The second result: the log-std head. -/
theorem result1 : W15 m ρ c (Proc.devRef .tc main_v95) = Cert.Stages.outLayer (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg8)) (m ((c : Thread nD τ).loc main_arg9)) :=
  (W15_arr m ρ c 2).trans ((Region7.out_eq (V14 m ρ) c).trans
    (congrArg₂ (Cert.Stages.bias64 (F := Ideal)) (agg4 m ρ c) (row4 m ρ c)))
/-- The first result: the mean head, made at region 5 and untouched since. -/
theorem result0 : W15 m ρ c (Proc.devRef .tc main_v79) = Cert.Stages.outLayer (F := Ideal) (Cert.Stages.hidden2 (F := Ideal) (Cert.Stages.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7)) :=
  ((W15_of_ne m ρ c main_v79 (by decide)).trans ((Keep.keep_hostOps7 (W13 m ρ c) main_v79 (by decide)).trans (W13_of_ne m ρ c main_v79 (by decide)))).trans (out0_at12 m ρ c)

end Cert.KernelIdeal.Walk

end
-- ==== Proof.RefRun.lean ====
/-
  The reference program's run.

  @main is a straight line of 129 host operations.  Every weakly fair execution runs them in order and
  terminates; each buffer ends at the operations' composed value of the launch memory.  Read at the two
  result buffers, that composed value is the two output layers of the stacked graph convolution
  (`Stages.outLayer` over `Stages.hidden2` over `Stages.hidden1`) of the ten argument arrays, which no
  operation writes.
-/
import proofs.«108035_j37495064494308_1_alg».proof.Proof.Gen.ReferenceIdeal
import proofs.«108035_j37495064494308_1_alg».proof.Proof.Stages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 129 operations, in order (a called function's operations stand in its call's place, spelt `TRef.…`). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    binary main_arg0 main_arg2 main_v32 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x128 ![0, 1] bcast_S850000x1_S850000x128_0_1 : (⟨S850000x1, .f32⟩ : BufTy).Contents (Elt F) → (⟨S850000x128, .f32⟩ : BufTy).Contents (Elt F)),
    binary main_v57 main_v59 main_v60 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf,
    binary main_v67 main_arg6 main_v68 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_13 (constantI S_ 32 0#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v71 (broadcastInDim S850000 ![] bcast_S_S850000 : (⟨S_, .i32⟩ : BufTy).Contents (Elt F) → (⟨S850000, .i32⟩ : BufTy).Contents (Elt F)),
    binary main_v3 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x64 ![0, 1] bcast_S850000x1_S850000x64_0_1 : (⟨S850000x1, .f32⟩ : BufTy).Contents (Elt F) → (⟨S850000x64, .f32⟩ : BufTy).Contents (Elt F)),
    binary main_v75 main_v77 main_v78 (mulf : (⟨S850000x64, .f32⟩ : BufTy).Contents (Elt F) → (⟨S850000x64, .f32⟩ : BufTy).Contents (Elt F) → (⟨S850000x64, .f32⟩ : BufTy).Contents (Elt F)),
    nullary main_cst_15 (constant S_ .f32 0x00000000#32),
    unary main_cst_15 main_v79 (broadcastInDim S50000x64 ![] bcast_S_S50000x64 : (⟨S_, .f32⟩ : BufTy).Contents (Elt F) → (⟨S50000x64, .f32⟩ : BufTy).Contents (Elt F)),
    unary main_v6 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v81 main_v83 main_v84 (addf : (⟨S50000x64, .f32⟩ : BufTy).Contents (Elt F) → (⟨S50000x64, .f32⟩ : BufTy).Contents (Elt F) → (⟨S50000x64, .f32⟩ : BufTy).Contents (Elt F)),
    binary main_v67 main_arg8 main_v85 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_16 (constantI S_ 32 0#32),
    unary main_c_16 main_v86 (broadcastInDim S850000 ![] bcast_S_S850000 : (⟨S_, .i32⟩ : BufTy).Contents (Elt F) → (⟨S850000, .i32⟩ : BufTy).Contents (Elt F)),
    binary main_v3 main_v86 main_v87 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v88 (broadcastInDim S850000 ![] bcast_S_S850000 : (⟨S_, .i32⟩ : BufTy).Contents (Elt F) → (⟨S850000, .i32⟩ : BufTy).Contents (Elt F)),
    binary main_v3 main_v88 main_v89 (addi : (⟨S850000, .i32⟩ : BufTy).Contents (Elt F) → (⟨S850000, .i32⟩ : BufTy).Contents (Elt F) → (⟨S850000, .i32⟩ : BufTy).Contents (Elt F)),
    ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v90 main_v91 (broadcastInDim S850000x1 ![0] bcast_S850000_S850000x1_0 : (⟨S850000, .i32⟩ : BufTy).Contents (Elt F) → (⟨S850000x1, .i32⟩ : BufTy).Contents (Elt F)),
    binary main_v85 main_v91 main_v92 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v93 (broadcastInDim S850000x1 ![0] bcast_S850000_S850000x1_0 : (⟨S850000, .f32⟩ : BufTy).Contents (Elt F) → (⟨S850000x1, .f32⟩ : BufTy).Contents (Elt F)),
    unary main_v93 main_v94 (broadcastInDim S850000x64 ![0, 1] bcast_S850000x1_S850000x64_0_1 : (⟨S850000x1, .f32⟩ : BufTy).Contents (Elt F) → (⟨S850000x64, .f32⟩ : BufTy).Contents (Elt F)),
    binary main_v92 main_v94 main_v95 (mulf : (⟨S850000x64, .f32⟩ : BufTy).Contents (Elt F) → (⟨S850000x64, .f32⟩ : BufTy).Contents (Elt F) → (⟨S850000x64, .f32⟩ : BufTy).Contents (Elt F)),
    nullary main_cst_18 (constant S_ .f32 0x00000000#32),
    unary main_cst_18 main_v96 (broadcastInDim S50000x64 ![] bcast_S_S50000x64 : (⟨S_, .f32⟩ : BufTy).Contents (Elt F) → (⟨S50000x64, .f32⟩ : BufTy).Contents (Elt F)),
    unary main_v6 main_v97 (broadcastInDim S850000x1 ![0] bcast_S850000_S850000x1_0 : (⟨S850000, .i32⟩ : BufTy).Contents (Elt F) → (⟨S850000x1, .i32⟩ : BufTy).Contents (Elt F)),
    ternary main_v96 main_v97 main_v95 main_v98 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg9 main_v99 (broadcastInDim S1x64 ![1] bcast_S64_S1x64_1 : (⟨S64, .f32⟩ : BufTy).Contents (Elt F) → (⟨S1x64, .f32⟩ : BufTy).Contents (Elt F)),
    unary main_v99 main_v100 (broadcastInDim S50000x64 ![0, 1] bcast_S1x64_S50000x64_0_1 : (⟨S1x64, .f32⟩ : BufTy).Contents (Elt F) → (⟨S50000x64, .f32⟩ : BufTy).Contents (Elt F)),
    binary main_v98 main_v100 main_v101 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The first output (the mean head) as a function of the launch memory's arguments. -/
def out0 (m : (ℓ : Loc nD τ sig) → Buf (Elt F) ℓ) (c : Dev nD) : Buf (Elt F) ((c.tc : Thread nD τ).loc main_v84) :=
  Cert.Stages.outLayer
    (Cert.Stages.hidden2
      (Cert.Stages.hidden1 (m ((c.tc : Thread nD τ).loc main_arg0)) (m ((c.tc : Thread nD τ).loc main_arg1))
        (m ((c.tc : Thread nD τ).loc main_arg2)) (m ((c.tc : Thread nD τ).loc main_arg3)))
      (m ((c.tc : Thread nD τ).loc main_arg1)) (m ((c.tc : Thread nD τ).loc main_arg4)) (m ((c.tc : Thread nD τ).loc main_arg5)))
    (m ((c.tc : Thread nD τ).loc main_arg1)) (m ((c.tc : Thread nD τ).loc main_arg6)) (m ((c.tc : Thread nD τ).loc main_arg7))

/-- The second output (the log-std head): the same hidden features through the other output layer. -/
def out1 (m : (ℓ : Loc nD τ sig) → Buf (Elt F) ℓ) (c : Dev nD) : Buf (Elt F) ((c.tc : Thread nD τ).loc main_v101) :=
  Cert.Stages.outLayer
    (Cert.Stages.hidden2
      (Cert.Stages.hidden1 (m ((c.tc : Thread nD τ).loc main_arg0)) (m ((c.tc : Thread nD τ).loc main_arg1))
        (m ((c.tc : Thread nD τ).loc main_arg2)) (m ((c.tc : Thread nD τ).loc main_arg3)))
      (m ((c.tc : Thread nD τ).loc main_arg1)) (m ((c.tc : Thread nD τ).loc main_arg4)) (m ((c.tc : Thread nD τ).loc main_arg5)))
    (m ((c.tc : Thread nD τ).loc main_arg1)) (m ((c.tc : Thread nD τ).loc main_arg8)) (m ((c.tc : Thread nD τ).loc main_arg9))

set_option maxRecDepth 8192 in
set_option maxHeartbeats 51600000 in
/-- Every weakly fair execution of the reference terminates with the two results at the two output layers of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = out0 m c
      ∧ r.2.mem ((c.tc : Thread nD τ).loc main_v101) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v84).trans (by after_results_simp <;> rfl),
      (h c main_v101).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.HandRun

end
-- ==== Proof.lean ====
/-
  Equivalence of a tiled stacked graph-convolution encoder with its plain reference, at the extended reals.

  The encoder is two hidden layers and two output heads, each layer  act (Â (X W) + b)  with Â the
  symmetrically normalised adjacency (self loops added) of a graph given as an edge list.  The kernel computes every
  product X W and every bias addition (with the hidden layers' maximum against zero) in regions that walk the
  50000 node rows in 25 blocks of 2000; the aggregation by Â — a gather of rows at the edges' sources, a scaling by
  the edge weights, a scatter-add into the targets — is the same host operations in both programs.

  Why the two programs agree: a block of 2000 rows of X W is the product of those rows of X with W, entry by entry
  the same finite sum over the contracted axis (the kernel's casts to bf16 are the identity on extended reals, its
  accumulator starts at zero), and the 25 blocks cover the rows; the bias stages are pointwise.  So each region's
  output array is the reference's whole-array operation applied to the region's operand arrays, and the shared
  aggregation is applied to equal arrays on both sides.  No law beyond commutative-monoid sums is used, so the
  finiteness of the inputs is never opened.

  The kernel's idealization rewrote nothing, so the second-to-last claim is trivial.
-/
import proofs.«108035_j37495064494308_1_alg».proof.Defs
import proofs.«108035_j37495064494308_1_alg».proof.Proof.Gen.Kernel
import proofs.«108035_j37495064494308_1_alg».proof.Proof.Gen.Kernel.Skeleton
import proofs.«108035_j37495064494308_1_alg».proof.Proof.Gen.Kernel.Launch
import proofs.«108035_j37495064494308_1_alg».proof.Proof.Gen.Kernel.Points
import proofs.«108035_j37495064494308_1_alg».proof.Proof.Gen.Kernel.Frame
import proofs.«108035_j37495064494308_1_alg».proof.Proof.Gen.KernelIdeal
import proofs.«108035_j37495064494308_1_alg».proof.Proof.Gen.KernelIdeal.Skeleton
import proofs.«108035_j37495064494308_1_alg».proof.Proof.Gen.KernelIdeal.Launch
import proofs.«108035_j37495064494308_1_alg».proof.Proof.Gen.KernelIdeal.Points
import proofs.«108035_j37495064494308_1_alg».proof.Proof.Gen.KernelIdeal.Frame
import proofs.«108035_j37495064494308_1_alg».proof.Proof.Gen.ReferenceIdeal
import proofs.«108035_j37495064494308_1_alg».proof.Proof.Gen.Pre_finite_inputs
import proofs.«108035_j37495064494308_1_alg».proof.Proof.KernelRun
import proofs.«108035_j37495064494308_1_alg».proof.Proof.Walk
import proofs.«108035_j37495064494308_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.HandRun.run (F := Ideal) m ρ)

/-- The second hidden layer's features, from the kernel's launch memory. -/
def hiddenOf (m : (ℓ : Loc Cert.KernelIdeal.nD Cert.KernelIdeal.τ Cert.KernelIdeal.sig) → Buf (Elt Ideal) ℓ) (c : Dev Cert.KernelIdeal.nD) :=
  (Cert.Stages.hidden2 (F := Ideal) (Cert.Stages.hidden1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))

/-- The idealized kernel's run: both results are the output layers of the second hidden layer's features. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v79)
        = Cert.Stages.outLayer (F := Ideal) (hiddenOf m c) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v95)
        = Cert.Stages.outLayer (F := Ideal) (hiddenOf m c) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun _ h c => ⟨(h c).1.trans (Cert.KernelIdeal.Walk.result0 m ρ c), (h c).2.1.trans (Cert.KernelIdeal.Walk.result1 m ρ c), (h c).2.2⟩)
    (Cert.KernelIdeal.Results.run (F := Ideal) m ρ)

/-- From memories agreeing on the ten arguments both programs end with the same two results: the reference's
    results are the same output layers of the same hidden features of the same arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ?_) (Cert.ReferenceIdeal.HandRun.run (F := Ideal) m' ρ')
  obtain ⟨a0, a1, a2, a3, a4, a5, a6, a7, a8, a9⟩ := hagree c
  refine ⟨(h c).1.trans ?_, (h c).2.1.trans ?_, (h c).2.2⟩
  · unfold Cert.ReferenceIdeal.HandRun.out0 hiddenOf
    rw [a0, a1, a2, a3, a4, a5, a6, a7]
  · unfold Cert.ReferenceIdeal.HandRun.out1 hiddenOf
    rw [a0, a1, a2, a3, a4, a5, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
